-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x128 .f32) (main_arg1 : FVec F S8192x8192 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x128 : Shape := ⟨2, ![8192, 128]⟩
abbrev S8192x8192 : Shape := ⟨2, ![8192, 8192]⟩
abbrev S8192 : Shape := ⟨1, ![8192]⟩
abbrev S8192x1 : Shape := ⟨2, ![8192, 1]⟩
abbrev S1x1 : Shape := ⟨2, ![1, 1]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 7
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x128, .bf16⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S8192x128, .f32⟩
  | .local _ .vmem, ⟨1, _⟩ => ⟨S8192x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x1024, .f32⟩
  | .local _ .vmem, ⟨7, _⟩ => ⟨S1024x1024, .f32⟩
  | .local _ .vmem, ⟨8, _⟩ => ⟨S1x1, .f32⟩
  | .local _ .vmem, ⟨9, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_scratch0 : Ref sig .tc := ⟨.vmem, 9, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![8, 8], ![false, false]⟩

def k1_cond2 (i : grid1.Coords) : BitVec 1 :=
  let arg0 : BitVec 32 := BitVec.ofNat 32 (i 0).val
  let c7_i32 : BitVec 32 := 7#32
  let v22 : BitVec 1 := Scalar.cmpi .eq arg0 c7_i32
  let arg1 : BitVec 32 := BitVec.ofNat 32 (i 1).val
  let c7_i32_13 : BitVec 32 := 7#32
  let v23 : BitVec 1 := Scalar.cmpi .eq arg1 c7_i32_13
  let v24 : BitVec 1 := Scalar.andi v22 v23
  let v25 : BitVec 32 := Scalar.extui v24
  let c0_i32_14 : BitVec 32 := 0#32
  let v26 : BitVec 1 := Scalar.cmpi .ne v25 c0_i32_14
  v26

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

class Facts₀ : Prop where
  inb_S8192x128_S8192x128_0_0 : ∀ a, (![0, 0] : Fin 2 → Nat) a + S8192x128.size a ≤ S8192x128.size a
  h_S8192x128 : 0 < S8192x128.numel
  reduces_S8192x128_S8192 : S8192x128.Reduces [1] S8192
  shapeCasts_S8192_S8192x1 : S8192.ShapeCasts S8192x1
  broadcasts_S8192x1_S8192x128 : S8192x1.Broadcasts S8192x128
  bitsLt_bf16_f32 : FTy.bits .bf16 < FTy.bits .f32
  packedbf16_S8192x128_S8192x128_0_0 : (Rect.unit (s := S8192x128) ![0, 0] S8192x128.size inb_S8192x128_S8192x128_0_0).PackedRows (EltTy.packing .bf16)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .bf16 = 32 ∨ (Rect.block (s := S8192x128) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .bf16 = 32 ∨ (Rect.block (s := S8192x128) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x128.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S128x8192 : Shape := ⟨2, ![128, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S128x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Frame0.lean ====
/- The first kernel of the program (the row normaliser) as one pipelined region with a single grid point.
   Its input array (8192 rows of length 128, f32) is fetched whole into the first staging buffer, the body
   reads that buffer through the whole rectangle, computes the normalised rows (the payload: each row divided
   by the larger of its Euclidean length and a small constant, then narrowed to bf16), and stores them through
   the whole rectangle of the second staging buffer, which the pipeline writes back whole to the output array.
   This module states, at ANY contents the region is entered with, the proof data of that pipeline, the body's
   obligation, and what the two arrays hold when the region is left: the input array is as it was, and the
   output array is the payload of the whole input array. Everything is generic in the float instance. -/
import proofs.«174208_j39316130627934_1_alg».proof.Proof.Gen.KernelIdeal.Launch
import proofs.«174208_j39316130627934_1_alg».proof.Proof.Gen.KernelIdeal.Skeleton
import proofs.«174208_j39316130627934_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks of the two windows -/

/-- The block of window w at the (only) grid point: the window's view of its array as the region finds it.
    Both windows' blocks are the whole array. -/
def blockIn (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the input block whenever the body runs, for any proof data whose
    input array is the entry contents and whose body leaves the input block in place. -/
theorem beforeIn_of {c : Dev nD} (dat : Dat τ (Elt F) Unit ℕ (UR sig nD τ) ℕ cfg0 c) (hA : dat.A 0 = V c (Pipeline.arrRef spec0 0))
    (hafter : ∀ t, dat.after 0 t = blockIn V c 0 t) (t : Fin cfg0.N) (d) : dat.before 0 t d = blockIn V c 0 t :=
  (dat.before_in_eq_fetched 0 rfl (fun _ => rfl) (fun _ _ _ => rfl) (fun t => by rw [hafter]; unfold Dat.blockOf blockIn; rw [hA]; try rfl) t d).trans
    (by unfold Dat.fetched Dat.blockOf blockIn; rw [hA]; try rfl)

/-! ## The body's one store -/

/-- The whole rectangle of an 8192 x 128 buffer: the body loads and stores through it. -/
abbrev wholeRect : Rect S8192x128 := Rect.unit (s := S8192x128) ![0, 0] S8192x128.size inb_S8192x128_S8192x128_0_0

/-- The output staging buffer after the body, from the input block x: the single store, of the normalised
    rows of what the whole-rectangle load of x reads, laid over the whole rectangle. -/
def outBuf (x : Vec F S8192x128 .f32) : Vec F S8192x128 .bf16 :=
  View.canon [⟨wholeRect, k0_pay1 (View.ld x wholeRect)⟩]

/-- The single store covers the buffer: every index lies in the whole rectangle. -/
theorem cover_whole (p : Vec F S8192x128 .bf16) (y : S8192x128.Idx) :
    ∃ pc ∈ ([⟨wholeRect, p⟩] : List (View.Piece (Elt F) S8192x128 .bf16)), y ∈ pc.1.set :=
  View.cover_of_tiled [⟨wholeRect, p⟩] S8192x128.size (by rfl) y

/-! ## The body's triple -/

set_option maxHeartbeats 1000000 in
/-- The body on two whole staging memrefs, the input's holding x and the output's holding anything, runs to
    the continuation with the input's unchanged and the output's holding outBuf x. The body also reads the
    output buffer before storing; what it reads there is not used. The grid coordinate is not used either. -/
theorem sound_kernel (c : Dev nD) (E : Set ℕ) (i : grid0.Coords)
    (arg1 : Memref sig .tc .vmem S8192x128 .f32) (harg1 : arg1.IsWhole) (arg2 : Memref sig .tc .vmem S8192x128 .bf16) (harg2 : arg2.IsWhole)
    (x : Vec F S8192x128 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (outBuf x)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_whole _)

/-! ## The pipeline's proof data -/

/-- The proof data of this pipeline on core c: the arrays as the region finds them; after the body the input
    staging buffer still holds the input block and the output staging buffer holds outBuf of the input block;
    the invariant is the class's (the scoped rest and the generator register, untouched); nothing is owed;
    full shares. -/
def dat0 (c : Dev nD) : Dat τ (Elt F) Unit ℕ (UR sig nD τ) ℕ cfg0 c where
  A w := V c (Pipeline.arrRef spec0 w)
  after w t := match w with
    | ⟨0, _⟩ => blockIn V c 0 t
    | ⟨1, _⟩ => outBuf (blockIn V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after_in (c : Dev nD) (t : Fin cfg0.N) : (dat0 V c).after 0 t = blockIn V c 0 t := by dsimp only [dat0]
theorem after_out (c : Dev nD) (t : Fin cfg0.N) : (dat0 V c).after 1 t = outBuf (blockIn V c 0 t) := by dsimp only [dat0]

/-- The input staging buffer holds the input block when the body runs. -/
theorem before_in (c : Dev nD) (t : Fin cfg0.N) (d) : (dat0 V c).before 0 t d = blockIn V c 0 t :=
  beforeIn_of V (dat0 V c) (A_eq0 V c 0) (after_in V c) t d

/-! ## The body obligation -/

/-- What the body is called with at point t: the invariant, the tallies, and the two staging buffers, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at the grid point: the input memref holds the input block, so the body's triple applies; the
    invariant and the tallies pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat0 V c).Φ t.succ = (dat0 V c).Φ t.castSucc from rfl,
    show (dat0 V c).owesAt () t.succ = (dat0 V c).owesAt () t.castSucc from rfl,
    after_in, after_out]
  iintro ⟨HΦ, Ho, ⟨%d0, H0⟩, ⟨%d1, H1⟩⟩
  iapply (sound_kernel c Set.univ _ _ _ _ _ (blockIn V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body V c t

/-! ## What the two arrays hold when the region is left -/

/-- The offsets the body's accesses use are zero on both axes. -/
theorem zeros2 : (![0, 0] : Fin 2 → Nat) = fun _ => 0 := funext fun a => by fin_cases a <;> rfl

/-- One store of a payload through the whole rectangle leaves the payload, and a load through the whole
    rectangle reads the buffer: the output buffer after the body is the normalised rows of the input block. -/
theorem outBuf_eq (x : Vec F S8192x128 .f32) : outBuf x = k0_pay1 x := by
  unfold outBuf
  rw [View.canon_unit_zero (S := S8192x128) zeros2, View.ld_unit_zero (S := S8192x128) zeros2]

/-- The input window's only block starts at row 0, column 0 of the input array, -/
theorem off_in (t : Fin cfg0.N) : (fun a => win0_0.index t a * main_arg0.ty.shape.size a) = fun _ => 0 :=
  funext fun a => by
    have h : win0_0.index t a = 0 := by fin_cases a <;> rfl
    rw [h]; exact Nat.zero_mul _

/-- and so does the output window's. -/
theorem off_out (t : Fin cfg0.N) : (fun a => win0_1.index t a * main_v0.ty.shape.size a) = fun _ => 0 :=
  funext fun a => by
    have h : win0_1.index t a = 0 := by fin_cases a <;> rfl
    rw [h]; exact Nat.zero_mul _

/-- The input block is the whole input array: a block of the array's own sizes at zero offsets. -/
theorem blockIn_eq (c : Dev nD) (t : Fin cfg0.N) : blockIn V c 0 t = V c main_arg0 := by
  unfold blockIn
  exact Memref.read_access_unit_zero (Elt F) main_arg0 (off_in t) (fun a => by rw [congrFun (off_in t) a]; simp) (V c main_arg0)

/-- The input array is never written: it ends as the region found it. -/
theorem arr0_in (c : Dev nD) : (dat0 V c).arrAt 0 cfg0.N = V c main_arg0 :=
  ((dat0 V c).arrAt_in 0 rfl cfg0.N).trans (A_eq0 V c 0)

/-- The one grid point writes its output block back, and that block is the whole output array: the array
    ends holding the normalised rows of the whole input array. -/
theorem arr0_out (c : Dev nD) : (dat0 V c).arrAt 1 cfg0.N = k0_pay1 (V c main_arg0) := by
  have hstep := (dat0 V c).arrAt_succ 1 t0_0
  rw [if_pos (flush0_1 t0_0)] at hstep
  refine (show (dat0 V c).arrAt 1 cfg0.N = (dat0 V c).arrAt 1 (t0_0.val + 1) from congrArg _ N_0).trans (hstep.trans ?_)
  have hfl : (dat0 V c).flushed 1 t0_0 = k0_pay1 (V c main_arg0) := by
    show (cfg0.win 1).cut (grid0.coords t0_0) ((dat0 V c).after 1 t0_0) = _
    rw [after_out, outBuf_eq, blockIn_eq]
    rfl
  rw [hfl]
  exact Memref.write_access_unit_zero_univ (Elt F) main_v0 (off_out t0_0) (fun a => by rw [congrFun (off_out t0_0) a]; simp) _ _

end Cert.KernelIdeal.Fr

end
-- ==== Proof.Frame1Runs.lean ====
import proofs.«174208_j39316130627934_1_alg».proof.Proof.Gen.KernelIdeal.Launch
import proofs.«174208_j39316130627934_1_alg».proof.Proof.Gen.KernelIdeal.Skeleton
import proofs.«174208_j39316130627934_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel (the tiled squared-error sum): its branch conditions and its body, run case by case

The grid is 8 × 8, visited in row-major order. The body zeroes the one-element accumulator at the first point,
adds the tile's squared-error sum to it at every point, and copies it to the output block at the last point. -/

/-- The reset branch is taken exactly at the first grid point, -/
abbrev condFirst (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcondFirst : ∀ t : Fin cfg1.N, condFirst (grid1.coords t) ↔ t.val = 0 :=
  (by decide +kernel : ∀ t : Fin grid1.N, condFirst (grid1.coords t) ↔ t.val = 0)
/-- and the write-out branch exactly at the last. -/
abbrev condLast (i : grid1.Coords) : Prop := k1_cond2 i = 1#1
theorem hcondLast : ∀ t : Fin cfg1.N, condLast (grid1.coords t) ↔ t.val = 63 :=
  (by decide +kernel : ∀ t : Fin grid1.N, condLast (grid1.coords t) ↔ t.val = 63)

/-- The whole one-element rectangle every access of the accumulator and of the output block goes through. -/
abbrev r1 : Rect S1x1 := Rect.unit (s := S1x1) ![0, 0] S1x1.size inb_S1x1_S1x1_0_0

theorem hz2 : (![0, 0] : Fin 2 → Nat) = fun _ => 0 := by
  funext a; match a with | ⟨0, _⟩ => rfl | ⟨1, _⟩ => rfl

/-- One store through the whole rectangle covers the buffer, -/
theorem cover11 (p : Vec F S1x1 .f32) (y : S1x1.Idx) :
    ∃ pc ∈ ([⟨r1, p⟩] : List (View.Piece (Elt F) S1x1 .f32)), y ∈ pc.1.set :=
  View.cover_of_tiled [⟨r1, p⟩] S1x1.size (by rfl) y
theorem mem_r1 (y : S1x1.Idx) : y ∈ r1.set := by
  have h : ∀ (off : Fin 2 → Nat) (_ : off = fun _ => 0) (inb : ∀ a, off a + S1x1.size a ≤ S1x1.size a),
      y ∈ (Rect.unit (s := S1x1) off S1x1.size inb).set := by
    intro off h inb; subst h; show y ∈ (Rect.whole S1x1).set; rw [Rect.set_whole]; exact Finset.mem_univ y
  exact h _ hz2 _
/-- and so does any list of stores whose last one goes through it. -/
theorem cover_head (p : Vec F S1x1 .f32) (L : List (View.Piece (Elt F) S1x1 .f32)) (y : S1x1.Idx) :
    ∃ pc ∈ ((⟨r1, p⟩ : View.Piece (Elt F) S1x1 .f32) :: L), y ∈ pc.1.set :=
  ⟨_, List.mem_cons_self .., mem_r1 y⟩

/-! ## The body at a point strictly between the first and the last: the accumulator gains the tile's sum -/

set_option maxHeartbeats 2000000 in
theorem run_mid (c : Dev nD) (E : Set ℕ) (i : grid1.Coords) (h1 : ¬condFirst i) (h2 : ¬condLast i)
    (arg2 : Memref sig .tc .vmem S1024x128 .bf16) (harg2 : arg2.IsWhole) (arg3 : Memref sig .tc .vmem S1024x128 .bf16) (harg3 : arg3.IsWhole)
    (arg4 : Memref sig .tc .vmem S1024x1024 .f32) (harg4 : arg4.IsWhole) (arg5 : Memref sig .tc .vmem S1x1 .f32) (harg5 : arg5.IsWhole)
    (arg6 : Memref sig .tc .vmem S1x1 .f32) (harg6 : arg6.IsWhole)
    (x0 x1 : Vec F S1024x128 .bf16) (x2 : Vec F S1024x1024 .f32) (d5 xs : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (d5) ∗ owns (c : Thread nD τ) arg6 fullShare (k1_pay2 x0 x1 x2 xs)) -∗ K ⟨⟩))
      ⊢ wp frame (wpE (defs₀ (F := F)) Variants.none c none) E (cc1__loss_kernel i arg2 harg2 arg3 harg3 arg4 harg4 arg5 harg5 arg6 harg6) K := by
  simp only [cc1__loss_kernel_eq_skeleton]; unfold cc1__loss_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  subst hf0; subst hf1; subst hf2; subst hf5; subst hf6
  sl_exec (disch := first | exact h1 | exact h2)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H5]; · iexists _; isplitr; · ipureintro; rfl
                  iexact H5
  iexists _; isplitr
  swap; · iexact H6
  ipureintro
  rw [View.read_writes_eq_canon _ _ _ (cover11 _), View.canon_unit_zero hz2]
  simp only [View.readAt_eq_ld]
  rw [View.ld_unit_zero hz2, View.ld_unit_zero hz2, View.ld_unit_zero hz2, View.ld_unit_zero hz2]

/-! ## The body at the first point: the accumulator is zeroed, then gains the tile's sum -/

set_option maxHeartbeats 2000000 in
theorem run_first (c : Dev nD) (E : Set ℕ) (i : grid1.Coords) (h1 : condFirst i) (h2 : ¬condLast i)
    (arg2 : Memref sig .tc .vmem S1024x128 .bf16) (harg2 : arg2.IsWhole) (arg3 : Memref sig .tc .vmem S1024x128 .bf16) (harg3 : arg3.IsWhole)
    (arg4 : Memref sig .tc .vmem S1024x1024 .f32) (harg4 : arg4.IsWhole) (arg5 : Memref sig .tc .vmem S1x1 .f32) (harg5 : arg5.IsWhole)
    (arg6 : Memref sig .tc .vmem S1x1 .f32) (harg6 : arg6.IsWhole)
    (x0 x1 : Vec F S1024x128 .bf16) (x2 : Vec F S1024x1024 .f32) (d5 xs : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (d5) ∗ owns (c : Thread nD τ) arg6 fullShare (k1_pay2 x0 x1 x2 k1_pay1)) -∗ K ⟨⟩))
      ⊢ wp frame (wpE (defs₀ (F := F)) Variants.none c none) E (cc1__loss_kernel i arg2 harg2 arg3 harg3 arg4 harg4 arg5 harg5 arg6 harg6) K := by
  simp only [cc1__loss_kernel_eq_skeleton]; unfold cc1__loss_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  subst hf0; subst hf1; subst hf2; subst hf5; subst hf6
  sl_exec (disch := first | exact h1 | exact h2)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H5]; · iexists _; isplitr; · ipureintro; rfl
                  iexact H5
  iexists _; isplitr
  swap; · iexact H6
  ipureintro
  rw [View.read_writes_eq_canon _ _ _ (cover_head _ _), View.canon_cons_unit_zero hz2]
  sl_unfold_run_names
  simp only [View.readAt_eq_ld]
  rw [View.ld_unit_zero hz2, View.ld_unit_zero hz2, View.ld_unit_zero hz2]
  exact congrArg (k1_pay2 _ _ _) (View.readCov_unit_zero _ hz2 _ _)

/-! ## The body at the last point: the accumulator gains the tile's sum and is copied to the output block -/

set_option maxHeartbeats 2000000 in
theorem run_last (c : Dev nD) (E : Set ℕ) (i : grid1.Coords) (h1 : ¬condFirst i) (h2 : condLast i)
    (arg2 : Memref sig .tc .vmem S1024x128 .bf16) (harg2 : arg2.IsWhole) (arg3 : Memref sig .tc .vmem S1024x128 .bf16) (harg3 : arg3.IsWhole)
    (arg4 : Memref sig .tc .vmem S1024x1024 .f32) (harg4 : arg4.IsWhole) (arg5 : Memref sig .tc .vmem S1x1 .f32) (harg5 : arg5.IsWhole)
    (arg6 : Memref sig .tc .vmem S1x1 .f32) (harg6 : arg6.IsWhole)
    (x0 x1 : Vec F S1024x128 .bf16) (x2 : Vec F S1024x1024 .f32) (d5 xs : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay2 x0 x1 x2 xs) ∗ owns (c : Thread nD τ) arg6 fullShare (k1_pay2 x0 x1 x2 xs)) -∗ K ⟨⟩))
      ⊢ wp frame (wpE (defs₀ (F := F)) Variants.none c none) E (cc1__loss_kernel i arg2 harg2 arg3 harg3 arg4 harg4 arg5 harg5 arg6 harg6) K := by
  simp only [cc1__loss_kernel_eq_skeleton]; unfold cc1__loss_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  subst hf0; subst hf1; subst hf2; subst hf5; subst hf6
  sl_exec (disch := first | exact h1 | exact h2)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H5]
  · iexists _; isplitr
    swap; · iexact H5
    ipureintro
    rw [View.read_writes_eq_canon _ _ _ (cover11 _), View.canon_unit_zero hz2]
    sl_unfold_run_names
    rw [View.readCov_unit_zero _ hz2]
    simp only [View.readAt_eq_ld]
    rw [View.ld_unit_zero hz2, View.ld_unit_zero hz2, View.ld_unit_zero hz2, View.ld_unit_zero hz2]
  iexists _; isplitr
  swap; · iexact H6
  ipureintro
  sl_unfold_run_names
  rw [View.read_writes_eq_canon _ _ _ (cover11 _), View.canon_unit_zero hz2]
  simp only [View.readAt_eq_ld]
  rw [View.ld_unit_zero hz2, View.ld_unit_zero hz2, View.ld_unit_zero hz2, View.ld_unit_zero hz2]

end Cert.KernelIdeal.Fr
end
-- ==== Proof.Frame1.lean ====
import proofs.«174208_j39316130627934_1_alg».proof.Proof.Gen.KernelIdeal.Launch
import proofs.«174208_j39316130627934_1_alg».proof.Proof.Gen.KernelIdeal.Skeleton
import proofs.«174208_j39316130627934_1_alg».proof.Proof.Gen.KernelIdeal.Points
import proofs.«174208_j39316130627934_1_alg».proof.Proof.Frame1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel: its proof data over the accumulator, and the body obligation at every grid point

`V` is what the core's buffers hold when the region is entered. Windows 0 and 1 read row blocks of the
normalised rows (one array, read through two windows), window 2 reads a tile of the similarity matrix, window 3
is the one-element output, written back at the last point only. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (when it is not
    fetched the block index has not moved), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Where the output window is idle -/

theorem idle1_3 : ∀ t : Fin cfg1.N, ¬condLast (grid1.coords t) → cfg1.idle 3 (grid1.coords t) = true := by decide +kernel
theorem noFlush1_3 : ∀ t : Fin cfg1.N, ¬condLast (grid1.coords t) → (cfg1.win 3).flush t = false := by decide +kernel
theorem live1_3 : ∀ t : Fin cfg1.N, condLast (grid1.coords t) → cfg1.idle 3 (grid1.coords t) = false := by decide +kernel

/-! ## The accumulator after each point -/

/-- The accumulator's buffer, a scratch of the kernel's own. -/
abbrev scM : Memref sig .tc .vmem S1x1 .f32 := Memref.whole cc1_scratch0

/-- What the accumulator holds after the body at position `n`: the tile's sum added to zero at the first
    point, to what the point before left at every later one. -/
def accAt (c : Dev nD) : (n : ℕ) → n < cfg1.N → Vec F S1x1 .f32
  | 0, hn => k1_pay2 (iblk1 V c 0 ⟨0, hn⟩) (iblk1 V c 1 ⟨0, hn⟩) (iblk1 V c 2 ⟨0, hn⟩) k1_pay1
  | n + 1, hn => k1_pay2 (iblk1 V c 0 ⟨n + 1, hn⟩) (iblk1 V c 1 ⟨n + 1, hn⟩) (iblk1 V c 2 ⟨n + 1, hn⟩) (accAt c n (Nat.lt_of_succ_lt hn))

theorem accAt_first (c : Dev nD) (t : Fin cfg1.N) (hz : t.val = 0) :
    accAt V c t.val t.isLt = k1_pay2 (iblk1 V c 0 t) (iblk1 V c 1 t) (iblk1 V c 2 t) k1_pay1 := by
  obtain ⟨n, hn⟩ := t
  cases n with
  | zero => rfl
  | succ n => exact absurd hz (Nat.succ_ne_zero n)

theorem accAt_later (c : Dev nD) (t : Fin cfg1.N) (hz : t.val ≠ 0) :
    accAt V c t.val t.isLt = k1_pay2 (iblk1 V c 0 t) (iblk1 V c 1 t) (iblk1 V c 2 t)
      (accAt V c (t.val - 1) (Nat.lt_of_le_of_lt (Nat.sub_le _ _) t.isLt)) := by
  obtain ⟨n, hn⟩ := t
  cases n with
  | zero => exact absurd rfl hz
  | succ n => rfl

/-! ## The region's invariant between points -/

/-- The two scoped buffers of the other kernel, at some contents each: untouched here. -/
def otherIn (c : Dev nD) : sProp 𝕄 :=
  iprop(∃ f : Buf (Elt F) ((c : Thread nD τ).loc cc0_stg0_0), ((c : Thread nD τ).loc cc0_stg0_0) ↦{fullShare} f)
def otherOut (c : Dev nD) : sProp 𝕄 :=
  iprop(∃ f : Buf (Elt F) ((c : Thread nD τ).loc cc0_stg1_0), ((c : Thread nD τ).loc cc0_stg1_0) ↦{fullShare} f)

/-- What the launch hands the region: those buffers, the accumulator at anything, the generator register. -/
theorem PhiA1_eq (c : Dev nD) :
    (Pipeline.ΦA spec1 c : sProp 𝕄)
      = iprop((otherIn c ∗ otherOut c ∗ (∃ d, owns (c : Thread nD τ) scM fullShare d)) ∗ (∃ r, prngReg c r)) := by
  unfold Pipeline.ΦA otherIn otherOut; rw [scopedRest1_eq]; simp only [scM, owns_whole]; try rfl

/-- The invariant before position `n`: before the first point what the launch hands over; afterwards the
    accumulator at what the point before left in it. -/
def Phi1 (c : Dev nD) : (n : ℕ) → n ≤ cfg1.N → sProp 𝕄
  | 0, _ => Pipeline.ΦA spec1 c
  | n + 1, hn => iprop((otherIn c ∗ otherOut c ∗ owns (c : Thread nD τ) scM fullShare (accAt V c n hn)) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop((otherIn c ∗ otherOut c ∗ owns (c : Thread nD τ) scM fullShare (accAt V c n hn)) ∗ (∃ r, prngReg c r)) := rfl
theorem Phi1_pos (c : Dev nD) (n : ℕ) (h : n ≤ cfg1.N) (hz : n ≠ 0) :
    Phi1 V c n h = iprop((otherIn c ∗ otherOut c ∗ owns (c : Thread nD τ) scM fullShare (accAt V c (n - 1) (by omega))) ∗ (∃ r, prngReg c r)) := by
  cases n with
  | zero => exact absurd rfl hz
  | succ n => rfl

/-! ## The proof data -/

/-- The proof data of the second pipeline on core `c`: the arrays as the region finds them; after the body each
    input's buffer at its block and the output's at the accumulator; the two windows that read the normalised
    rows hold that array at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => accAt V c t.val t.isLt
  Φ t := Phi1 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = accAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; which of the three cases the point is in is
    read off its position; the invariant hands the body the accumulator at what the point before left (at anything
    at the first point) and takes it back at this point's contents; the output block is handed back as it was
    found except at the last point, where it receives the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  have hN : t.val < 64 := lt_of_lt_of_eq t.isLt (show cfg1.N = 64 from N_1)
  rw [show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from rfl, after1_2]
  by_cases hz : t.val = 0
  · have h1 : condFirst (grid1.coords t) := (hcondFirst t).mpr hz
    have h2 : ¬condLast (grid1.coords t) := fun h => by have := (hcondLast t).mp h; omega
    rw [Dat.leavesExact_idle (dat1 V c) 3 t (idle1_3 t h2) (noFlush1_3 t h2)]
    rw [accAt_first V c t hz, Phi1_castSucc V c t, Phi1_zero V c _ _ hz, PhiA1_eq]
    iintro ⟨⟨⟨HO, HO', ⟨%ds, HS⟩⟩, Hg⟩, Ho, ⟨%d0, H0⟩, ⟨%d1, H1⟩, ⟨%d2, H2⟩, ⟨%d3, H3⟩⟩
    iapply (run_first c Set.univ (grid1.coords t) h1 h2 _ _ _ _ _ _ _ _ scM (Memref.isWhole_whole _)
      (iblk1 V c 0 t) (iblk1 V c 1 t) (iblk1 V c 2 t) ((dat1 V c).before 3 t d3) ds _)
    isplitl [H0]; · iexact H0
    isplitl [H1]; · iexact H1
    isplitl [H2]; · iexact H2
    isplitl [H3]; · iexact H3
    isplitl [HS]; · iexact HS
    iintro ⟨H0, H1, H2, H3, HS⟩
    isplitl [HO HO' HS Hg]
    · isplitr [Hg]
      · isplitl [HO]; · iexact HO
        isplitl [HO']; · iexact HO'
        iexact HS
      · iexact Hg
    isplitl [Ho]; · iexact Ho
    isplitl [H0]; · iexact H0
    isplitl [H1]; · iexact H1
    isplitl [H2]; · iexact H2
    iexists _; iexact H3
  · by_cases hl : t.val = 63
    · have h1 : ¬condFirst (grid1.coords t) := fun h => hz ((hcondFirst t).mp h)
      have h2 : condLast (grid1.coords t) := (hcondLast t).mpr hl
      rw [show (dat1 V c).leavesExact 3 t = owns (c : Thread nD τ) (st1_3 t) fullShare ((dat1 V c).after 3 t) from by
        unfold Dat.leavesExact; rw [live1_3 t h2], after1_3]
      rw [accAt_later V c t hz, Phi1_castSucc V c t, Phi1_pos V c _ _ hz]
      iintro ⟨⟨⟨HO, HO', HS⟩, Hg⟩, Ho, ⟨%d0, H0⟩, ⟨%d1, H1⟩, ⟨%d2, H2⟩, ⟨%d3, H3⟩⟩
      iapply (run_last c Set.univ (grid1.coords t) h1 h2 _ _ _ _ _ _ _ _ scM (Memref.isWhole_whole _)
        (iblk1 V c 0 t) (iblk1 V c 1 t) (iblk1 V c 2 t) ((dat1 V c).before 3 t d3) _ _)
      isplitl [H0]; · iexact H0
      isplitl [H1]; · iexact H1
      isplitl [H2]; · iexact H2
      isplitl [H3]; · iexact H3
      isplitl [HS]; · iexact HS
      iintro ⟨H0, H1, H2, H3, HS⟩
      isplitl [HO HO' HS Hg]
      · isplitr [Hg]
        · isplitl [HO]; · iexact HO
          isplitl [HO']; · iexact HO'
          iexact HS
        · iexact Hg
      isplitl [Ho]; · iexact Ho
      isplitl [H0]; · iexact H0
      isplitl [H1]; · iexact H1
      isplitl [H2]; · iexact H2
      iexact H3
    · have h1 : ¬condFirst (grid1.coords t) := fun h => hz ((hcondFirst t).mp h)
      have h2 : ¬condLast (grid1.coords t) := fun h => hl ((hcondLast t).mp h)
      rw [Dat.leavesExact_idle (dat1 V c) 3 t (idle1_3 t h2) (noFlush1_3 t h2)]
      rw [accAt_later V c t hz, Phi1_castSucc V c t, Phi1_pos V c _ _ hz]
      iintro ⟨⟨⟨HO, HO', HS⟩, Hg⟩, Ho, ⟨%d0, H0⟩, ⟨%d1, H1⟩, ⟨%d2, H2⟩, ⟨%d3, H3⟩⟩
      iapply (run_mid c Set.univ (grid1.coords t) h1 h2 _ _ _ _ _ _ _ _ scM (Memref.isWhole_whole _)
        (iblk1 V c 0 t) (iblk1 V c 1 t) (iblk1 V c 2 t) ((dat1 V c).before 3 t d3) _ _)
      isplitl [H0]; · iexact H0
      isplitl [H1]; · iexact H1
      isplitl [H2]; · iexact H2
      isplitl [H3]; · iexact H3
      isplitl [HS]; · iexact HS
      iintro ⟨H0, H1, H2, H3, HS⟩
      isplitl [HO HO' HS Hg]
      · isplitr [Hg]
        · isplitl [HO]; · iexact HO
          isplitl [HO']; · iexact HO'
          iexact HS
        · iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr
end
-- ==== Proof.Entry.lean ====
import proofs.«174208_j39316130627934_1_alg».proof.Proof.Frame0
import proofs.«174208_j39316130627934_1_alg».proof.Proof.Frame1
import proofs.«174208_j39316130627934_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the two regions find and leave

The first region is entered from the launch memory and leaves the normalised rows in `main_v0`; the second is
entered from that and leaves the accumulated sum in `main_v1`. -/

variable (m : (ℓ : Loc nD τ sig) → Buf (Elt F) ℓ)

/-- The first region's entry contents: the launch memory. -/
abbrev Ve0 : (c : Dev nD) → (b : Ref sig .tc) → Buf (Elt F) ((c : Thread nD τ).loc b) := fun c b => V0 m c b

/-- What the first region leaves in `main_v0`. -/
def out0 (c : Dev nD) : Buf (Elt F) ((c : Thread nD τ).loc main_v0) := (dat0 (Ve0 m) c).arrAt 1 cfg0.N

/-- The buffers after the first region: `main_v0` at what it leaves, the others as launched. -/
abbrev W1 (c : Dev nD) : Valuation τ sig (Elt F) := Function.update (V0 m c) main_v0 (out0 m c)

/-- The second region's entry contents. -/
abbrev Ve1 : (c : Dev nD) → (b : Ref sig .tc) → Buf (Elt F) ((c : Thread nD τ).loc b) := fun c b => W1 m c b

/-- What the second region leaves in `main_v1`. -/
def out1 (c : Dev nD) : Buf (Elt F) ((c : Thread nD τ).loc main_v1) := (dat1 (Ve1 m) c).arrAt 3 cfg1.N

/-- The buffers after the second region. -/
abbrev W2 (c : Dev nD) : Valuation τ sig (Elt F) := Function.update (W1 m c) main_v1 (out1 m c)

/-- What the regions leave, as the table the host side of the run is stated over. -/
def outs : Outs (F := F) := fun _ r c => W2 m c r

theorem outs_v0 (c : Dev nD) : outs m 1 main_v0 c = out0 m c := by
  unfold outs
  show Function.update (Function.update (V0 m c) main_v0 (out0 m c)) main_v1 (out1 m c) (Proc.devRef .tc main_v0) = out0 m c
  rw [Function.update_of_ne (StableHlo.devRef_ne_of_ne (by decide) : (Proc.devRef .tc main_v0 : DevRef τ sig) ≠ Proc.devRef .tc main_v1)]
  exact Function.update_self ..
theorem outs_v1 (c : Dev nD) : outs m 2 main_v1 c = out1 m c := by
  unfold outs
  show Function.update (W1 m c) main_v1 (out1 m c) (Proc.devRef .tc main_v1) = out1 m c
  exact Function.update_self ..

theorem V1_eq (c : Dev nD) : V1 m (outs m) c = W1 m c := by
  show Function.update (V0 m c) main_v0 (outs m 1 main_v0 c) = _; rw [outs_v0]
theorem V2_eq (c : Dev nD) : V2 m (outs m) c = W2 m c := by
  show Function.update (V1 m (outs m) c) main_v1 (outs m 2 main_v1 c) = _; rw [outs_v1, V1_eq]

/-- Both pipelines' proof data, each at its region's entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

/-- What rides beside the buffers through every segment: the generator register at some state, nothing owed. -/
abbrev Rest (c : Dev nD) : sProp 𝕄 := iprop((∃ r, prngReg c r) ∗ ∃ W, owes (c : Thread nD τ) (0 : CellTallies nD τ sig Unit) W)

end Cert.KernelIdeal.Fr
end
-- ==== Proof.Reg0.lean ====
/- The first kernel region as a segment of the run. The region is entered with every unscoped buffer of the
   core held at the launch memory; it takes its two arrays (the input rows and the normalised-rows output) out of
   those buffers, runs the pipeline, and gives every unscoped buffer back: the output array at what the pipeline's
   write-back leaves, every other buffer (the input array among them) as launched. The generator register goes
   into the pipeline's invariant and comes out again; the core owes nothing before or after; the kernel has no
   semaphore of its own. -/
import proofs.«174208_j39316130627934_1_alg».proof.Proof.Entry

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is left -/

/-- The input array and the output array are different buffers. -/
theorem arg0_ne_v0 : (Proc.devRef .tc main_arg0 : DevRef τ sig) ≠ Proc.devRef .tc main_v0 :=
  StableHlo.devRef_ne_of_ne (by decide)

/-- When the region is left each of its two arrays holds what the pipeline leaves there: the input array its
    launch contents (it is never written), the output array what the one write-back wrote. -/
theorem exit_arrays (c : Dev nD) (w : Fin cfg0.W) :
    (pdats m 0 c).arrAt w cfg0.N = W1 m c (Pipeline.arrRef spec0 w) := by
  match w with
  | ⟨0, _⟩ =>
    show (dat0 (Ve0 m) c).arrAt 0 cfg0.N = Function.update (V0 m c) main_v0 (out0 m c) main_arg0
    rw [Function.update_of_ne arg0_ne_v0]
    exact arr0_in (Ve0 m) c
  | ⟨1, _⟩ =>
    show (dat0 (Ve0 m) c).arrAt 1 cfg0.N = Function.update (V0 m c) main_v0 (out0 m c) main_v0
    rw [Function.update_self]
    rfl

/-- Every buffer that is neither of the region's arrays is as launched. -/
theorem exit_rest (c : Dev nD) : ∀ b : Ref sig .tc, b ∉ Finset.univ.image (Pipeline.arrRef spec0) → W1 m c b = V0 m c b :=
  fun b hb => Function.update_of_ne
    (StableHlo.devRef_ne_of_ne fun e => hb (Finset.mem_image.mpr ⟨1, Finset.mem_univ _, e.symm⟩)) _ _

/-! ## The region as a segment -/

set_option backward.isDefEq.respectTransparency.types false in
/-- The first region over the thread state: entered from every unscoped buffer at the launch memory, left with
    the output array at the normalised rows and everything else unchanged. -/
def reg0 : Pipeline.RegionSeg (pcfgs (F := F)) Gen.adm (pdats m) () defs₀ Variants.none (fun _ => ∅) (fun _ _ => 0) 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ (fun _ => ∅) (fun _ _ => 0) 0 fun _ _ => rfl
  pre c := iprop(StableHlo.held (c : Thread nD τ) (Pipeline.ucRefs τ sig) (V0 m c) ∗ Rest c)
  post c := iprop(StableHlo.held (c : Thread nD τ) (Pipeline.ucRefs τ sig) (W1 m c) ∗ Rest c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (exit_arrays m c) (exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the region is entered from, -/
theorem reg0_pre (c : Dev nD) : (reg0 m).pre c = iprop(StableHlo.held (c : Thread nD τ) (Pipeline.ucRefs τ sig) (V0 m c) ∗ Rest c) := rfl
/-- and what it is left at. -/
theorem reg0_post (c : Dev nD) : (reg0 m).post c = iprop(StableHlo.held (c : Thread nD τ) (Pipeline.ucRefs τ sig) (W1 m c) ∗ Rest c) := rfl

end Cert.KernelIdeal.Fr

end
-- ==== Proof.Arr1.lean ====
/-
  What the second region leaves in its four arrays, at any contents it is entered with and for any float
  instance.  The three input arrays (the normalised rows, read through two windows, and the similarity
  matrix) are never written.  The output array has one element; only the last of the 64 grid points writes
  its block back, and that block is the whole array: it ends holding what the accumulator holds after the
  last point.
-/
import proofs.«174208_j39316130627934_1_alg».proof.Proof.Frame1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The input arrays -/

/-- The normalised rows, as the first window reads them, are never written. -/
theorem arr1_in0 (c : Dev nD) : (dat1 V c).arrAt 0 cfg1.N = V c main_v0 :=
  ((dat1 V c).arrAt_in 0 rfl cfg1.N).trans (A_eq1 V c 0)

/-- The same array, as the second window reads it. -/
theorem arr1_in1 (c : Dev nD) : (dat1 V c).arrAt 1 cfg1.N = V c main_v0 :=
  ((dat1 V c).arrAt_in 1 rfl cfg1.N).trans (A_eq1 V c 1)

/-- The similarity matrix is never written. -/
theorem arr1_in2 (c : Dev nD) : (dat1 V c).arrAt 2 cfg1.N = V c main_arg1 :=
  ((dat1 V c).arrAt_in 2 rfl cfg1.N).trans (A_eq1 V c 2)

/-! ## The output array -/

/-- Position 63 is a point of the 8 × 8 grid. -/
theorem lastLt : 63 < cfg1.N := by rw [show cfg1.N = 64 from N_1]; decide

/-- The last grid point, (7, 7), at position 63 of the row-major order. -/
def tLast : Fin cfg1.N := ⟨63, lastLt⟩

/-- The output window's only block starts at row 0, column 0 of the one-element output array. -/
theorem off_out1 (t : Fin cfg1.N) : (fun a => win1_3.index t a * main_v1.ty.shape.size a) = fun _ => 0 :=
  funext fun a => by
    have h : win1_3.index t a = 0 := by fin_cases a <;> rfl
    rw [h]; exact Nat.zero_mul _

/-- Only the last point writes the output block back, and the block is the whole array: it ends holding the
    accumulator's contents after the last point. -/
theorem arr1_out (c : Dev nD) : (dat1 V c).arrAt 3 cfg1.N = accAt V c 63 lastLt := by
  have hstep := (dat1 V c).arrAt_succ 3 tLast
  rw [if_pos ((flush1_3 tLast).mpr rfl)] at hstep
  refine (show (dat1 V c).arrAt 3 cfg1.N = (dat1 V c).arrAt 3 (tLast.val + 1) from congrArg _ N_1).trans (hstep.trans ?_)
  have hfl : (dat1 V c).flushed 3 tLast = accAt V c 63 lastLt := by
    show (cfg1.win 3).cut (grid1.coords tLast) ((dat1 V c).after 3 tLast) = _
    rw [after1_3]
    rfl
  rw [hfl]
  exact Memref.write_access_unit_zero_univ (Elt F) main_v1 (off_out1 tLast) (fun a => by rw [congrFun (off_out1 tLast) a]; simp) _ _

end Cert.KernelIdeal.Fr

end
-- ==== Proof.Reg1.lean ====
import proofs.«174208_j39316130627934_1_alg».proof.Proof.Entry
import proofs.«174208_j39316130627934_1_alg».proof.Proof.Arr1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays

variable (V : (c : Dev nD) → (b : Ref sig .tc) → Buf (Elt F) ((c : Thread nD τ).loc b))

/-! # The second region's arrays: one buffer read through two windows

The normalised rows sit in ONE buffer that windows 0 and 1 both read. At the region's entry the buffer, held whole,
is split into the two halves of the full share, one per window; at the exit the halves are joined again. -/

theorem share1_0 (c : Dev nD) : (dat1 V c).share 0 = fullShare.left := rfl
theorem share1_1 (c : Dev nD) : (dat1 V c).share 1 = fullShare.right := rfl
theorem share1_2 (c : Dev nD) : (dat1 V c).share 2 = fullShare := rfl
theorem share1_3 (c : Dev nD) : (dat1 V c).share 3 = fullShare := rfl

theorem arrSet1 (w : Fin 4) : (cfg1.win w).arr.view.set = Finset.univ := (arr_whole1 w).set_eq_univ

/-- The three distinct buffers behind the four windows, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v0) ↦{fullShare} V' main_v0) ∗ (((c : Thread nD τ).loc main_arg1) ↦{fullShare} V' main_arg1)
          ∗ (((c : Thread nD τ).loc main_v1) ↦{fullShare} V' main_v1)) := by
  unfold Pipeline.arrBufs
  exact bigSep_eq_bigSepL_of_eq [main_v0, main_arg1, main_v1] (by decide) (by decide) _

/-- ENTRY: those buffers, each whole at `V`, are the pipeline's arrays at entry. -/
theorem arrays1_entry (c : Dev nD) :
    (Pipeline.arrBufs (Ix := Unit) (Name := ℕ) (U := UR sig nD τ) (Lvl := ℕ) spec1 c (V c) : sProp 𝕄) ⊢ (dat1 V c).arrays ((dat1 V c).arrAt · 0) := by
  rw [arrBufs1_eq]
  unfold Dat.arrays
  rw [bigSep_W1]
  rw [arrSet1 0, arrSet1 2, arrSet1 3, share1_0, share1_1, share1_2, share1_3]
  iintro ⟨H0, H1, H3⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  iexact H3

/-- EXIT: the arrays at contents that agree with a valuation `V'` are the three buffers whole at `V'`. -/
theorem arrays1_exit (c : Dev nD) (V' : (b : Ref sig .tc) → Buf (Elt F) ((c : Thread nD τ).loc b))
    (G : (w : Fin cfg1.W) → Buf (Elt F) ((cfg1.win w).arr.view.loc (c : Thread nD τ)))
    (h0 : G 0 = V' main_v0) (h1 : G 1 = V' main_v0) (h2 : G 2 = V' main_arg1) (h3 : G 3 = V' main_v1) :
    (dat1 V c).arrays G ⊢ (Pipeline.arrBufs (Ix := Unit) (Name := ℕ) (U := UR sig nD τ) (Lvl := ℕ) spec1 c V' : sProp 𝕄) := by
  rw [arrBufs1_eq]
  unfold Dat.arrays
  rw [bigSep_W1]
  rw [arrSet1 0, arrSet1 2, arrSet1 3, share1_0, share1_1, share1_2, share1_3, h0, h1, h2, h3]
  iintro ⟨Hl, Hr, H1, H3⟩
  isplitl [Hl Hr]
  · iapply (pointsTo_share (PosShare.mem_left_op_right fullShare)).2
    isplitl [Hl]; · iexact Hl
    iexact Hr
  isplitl [H1]; · iexact H1
  iexact H3

/-- After the last point the invariant gives back what the launch handed over: the accumulator's contents are forgotten. -/
theorem Phi1_last (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 64 := N_1; omega), PhiA1_eq]
  iintro ⟨⟨HO, HO', HS⟩, Hg⟩
  isplitl [HO HO' HS]
  · isplitl [HO]; · iexact HO
    isplitl [HO']; · iexact HO'
    iexists _; iexact HS
  iexact Hg

end Arrays

variable (m : (ℓ : Loc nD τ sig) → Buf (Elt F) ℓ)

theorem v0_ne_v1 : (Proc.devRef .tc main_v0 : DevRef τ sig) ≠ Proc.devRef .tc main_v1 := StableHlo.devRef_ne_of_ne (by decide)
theorem arg1_ne_v1 : (Proc.devRef .tc main_arg1 : DevRef τ sig) ≠ Proc.devRef .tc main_v1 := StableHlo.devRef_ne_of_ne (by decide)

/-- Off the output `main_v1` the second region changes nothing. -/
theorem W2_rest (c : Dev nD) (b : Ref sig .tc) (hb : b ∉ Finset.univ.image (Pipeline.arrRef spec1)) : W2 m c b = W1 m c b := by
  have hne : b ≠ main_v1 := fun e => hb (Finset.mem_image.mpr ⟨3, Finset.mem_univ _, e.symm⟩)
  exact Function.update_of_ne (StableHlo.devRef_ne_of_ne hne) ..

-- the library's lemmas are stated over the pinned configuration; unifying them with the printed one unfolds plain definitions
set_option backward.isDefEq.respectTransparency.types false in
/-- THE SECOND REGION as a segment: entered from every unscoped buffer at `W1`, left at `W2`. Its arrays are split
    out of the unscoped buffers (the shared buffer into two half shares) and put back; the generator register goes
    into the invariant and comes out; nothing is owed; the kernel has no semaphore of its own. -/
def reg1 : Pipeline.RegionSeg (pcfgs (F := F)) adm (pdats m) () defs₀ Variants.none (fun _ => ∅) (fun _ _ => 0) 1 where
  win := winFacts₀1
  block_pos := block_pos1
  stage_whole := stage_whole1
  K := PEmpty
  osem k := k.elim
  ho := Pipeline.OwnSemFacts.none _
  hbody c := (body_obligation1 (Ve1 m) c).loose
  hwaits := Pipeline.hwaits_of_owed_zero _ _ _ _ (fun _ => ∅) (fun _ _ => 0) 1 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit : (StableHlo.held (c : Thread nD τ) (Pipeline.ucRefs τ sig) (W1 m c) : sProp 𝕄)
        ⊢ iprop((pdats m 1 c).arrays ((pdats m 1 c).arrAt · 0) ∗ Pipeline.unscopedRest spec1 c (Ve1 m c)) := by
      rw [← Pipeline.unscopedBufs_held (Ix := Unit) (Name := ℕ) (U := UR sig nD τ) (Lvl := ℕ) c (W1 m c),
        Pipeline.unscopedBufs_split₀ cfgs 1 winFacts₀1.arr_unscoped c]
      exact BIClass.sep_mono (arrays1_entry (Ve1 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Phi1_last (Ve1 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Ve1 m c))
        ⊢ (StableHlo.held (c : Thread nD τ) (Pipeline.ucRefs τ sig) (W2 m c) : sProp 𝕄) := by
      rw [← Pipeline.unscopedBufs_held (Ix := Unit) (Name := ℕ) (U := UR sig nD τ) (Lvl := ℕ) c (W2 m c),
        Pipeline.unscopedBufs_split₀ cfgs 1 winFacts₀1.arr_unscoped c]
      refine BIClass.sep_mono (arrays1_exit (Ve1 m) c (fun b => W2 m c b) _
        ((arr1_in0 (Ve1 m) c).trans (Function.update_of_ne v0_ne_v1 ..).symm)
        ((arr1_in1 (Ve1 m) c).trans (Function.update_of_ne v0_ne_v1 ..).symm)
        ((arr1_in2 (Ve1 m) c).trans (Function.update_of_ne arg1_ne_v1 ..).symm)
        ((show (pdats m 1 c).arrAt 3 cfg1.N = out1 m c from rfl).trans (outs_v1 m c).symm)) (Entails.of_eq ?_)
      unfold Pipeline.unscopedRest
      exact bigSep_congr fun b hb => congrArg (fun f => ((((c : Thread nD τ).loc b) ↦{fullShare} f) : sProp 𝕄)) (W2_rest m c b (Finset.mem_sdiff.mp hb).2).symm
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg1_pre (c : Dev nD) : (reg1 m).pre c = iprop(StableHlo.held (c : Thread nD τ) (Pipeline.ucRefs τ sig) (W1 m c) ∗ Rest c) := rfl
theorem reg1_post (c : Dev nD) : (reg1 m).post c = iprop(StableHlo.held (c : Thread nD τ) (Pipeline.ucRefs τ sig) (W2 m c) ∗ Rest c) := rfl

end Cert.KernelIdeal.Fr
end
-- ==== Proof.RunCond.lean ====
/-
  The run of the two-region program, given the regions' records.

  Between two items of the program each core holds every unscoped buffer whole, at the contents the valuations
  `V0 … V3` name (the launch contents; then what region 0 leaves in its output; then what region 1 leaves in
  its output; then the three host operations applied), beside a rest.  Given one record per region entered from
  the state before it and left at the state after it, every weakly fair execution terminates, and at the end the
  memory holds, at every unscoped buffer, the last valuation's contents (`run_gen`).  Read at the result and at
  the two arguments this is `run_cond`: the result holds the last valuation's value, the arguments their launch
  contents.  The last valuation at the result is the division of the reshaped output of region 1 by the constant
  (`V3_main_v3`).  Last, both statements at the algebra in which the rest is "the generator register at some
  state, nothing owed" (`frame_of_regions`, `run_of_regions`).
-/
import proofs.«174208_j39316130627934_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- An unscoped TensorCore reference is among the unscoped references. -/
theorem mem_uc (r : Ref sig .tc) (h : ¬(Proc.devRef (τ := τ) .tc r).isScoped = true) :
    Proc.devRef (τ := τ) .tc r ∈ Pipeline.ucRefs τ sig :=
  Finset.mem_filter.mpr ⟨StableHlo.devRef_mem_tcRefs r, h⟩

set_option backward.isDefEq.respectTransparency.types false in
/-- Given the regions' records, every weakly fair execution from memory `m` with zero counters terminates, and any
    property of the final memory that follows from "every unscoped buffer of every core holds the last valuation's
    contents" holds of it. -/
theorem run_gen {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Gen.Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs Gen.cellOf_inj) (Pipeline.launchToks cfgs Gen.cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) Gen.adm pdats ι defs₀ 𝒱₀ L lv 0)
    (hpre0 : ∀ c : Dev nD, iprop(StableHlo.held (c : Thread nD τ) (Pipeline.ucRefs τ sig) (Gen.V0 m c) ∗ E 0 c) ⊢ R0.pre c)
    (hpost0 : ∀ c : Dev nD, R0.post c ⊢ iprop(StableHlo.held (c : Thread nD τ) (Pipeline.ucRefs τ sig) (Gen.V1 m outs c) ∗ E 1 c))
    (R1 : RegionSeg (pcfgs (F := F)) Gen.adm pdats ι defs₀ 𝒱₀ L lv 1)
    (hpre1 : ∀ c : Dev nD, iprop(StableHlo.held (c : Thread nD τ) (Pipeline.ucRefs τ sig) (Gen.V1 m outs c) ∗ E 1 c) ⊢ R1.pre c)
    (hpost1 : ∀ c : Dev nD, R1.post c ⊢ iprop(StableHlo.held (c : Thread nD τ) (Pipeline.ucRefs τ sig) (Gen.V2 m outs c) ∗ E 2 c))
    {Q : PUnit × MemSt nD τ sig (Elt F) → Prop}
    (hQ : ∀ s : MemSt nD τ sig (Elt F),
      (∀ c : Dev nD, ∀ b ∈ Pipeline.ucRefs τ sig, s.mem ((c : Thread nD τ).1, b) = Gen.V3 m outs c b) → Q (⟨⟩, s)) :
    θ_run defs (onTc (τ := τ) (main (F := F))) ⟨m, fun _ => 0, ρ⟩ Q := by
  refine Pipeline.θ_run_regions_kit_dev (pcfgs (F := F)) Gen.adm pdats ι Gen.cellOf_inj EP defs₀ 𝒱₀ L lv m ρ main
    (Gen.segs m outs 𝒱₀ L lv E ι pdats R0 R1)
    (fun c Q => by
      rewrite [Gen.main_chain c, Seg.run_eq_chain,
        show (Gen.segs m outs 𝒱₀ L lv E ι pdats R0 R1 c).map Seg.prog = [
          Prog.lift (.customCall (Pipeline.entry 0) ()),
          Prog.lift (.customCall (Pipeline.entry 1) ()),
          StableHlo.seq Gen.hostOps2 ] from rfl]
      exact .rfl)
    (fun c => by simp only [Gen.segs, Seg.pipes_host, Seg.pipes_region, Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V3 m outs c))
    (hch := fun c => ⟨hpre0 c, (hpost0 c).trans (hpre1 c), hpost1 c, sep_mono .rfl (hE2 c)⟩)
    (hinit := ?_)
    (QY := fun c s => ∀ b ∈ Pipeline.ucRefs τ sig, s.mem ((c : Thread nD τ).1, b) = Gen.V3 m outs c b)
    (hfin := fun c s' => ?_) (hQ := hQ)
  · -- the launch: the unscoped buffers are held at the launch contents; the rest is made on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (Gen.V3 m outs c) s')
    isplitl [Hh] <;> iassumption

set_option backward.isDefEq.respectTransparency.types false in
/-- Given the regions' records, every weakly fair execution from memory `m` with zero counters terminates, and at the
    end the result buffer holds the last valuation's value and each argument its launch contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Gen.Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs Gen.cellOf_inj) (Pipeline.launchToks cfgs Gen.cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) Gen.adm pdats ι defs₀ 𝒱₀ L lv 0)
    (hpre0 : ∀ c : Dev nD, iprop(StableHlo.held (c : Thread nD τ) (Pipeline.ucRefs τ sig) (Gen.V0 m c) ∗ E 0 c) ⊢ R0.pre c)
    (hpost0 : ∀ c : Dev nD, R0.post c ⊢ iprop(StableHlo.held (c : Thread nD τ) (Pipeline.ucRefs τ sig) (Gen.V1 m outs c) ∗ E 1 c))
    (R1 : RegionSeg (pcfgs (F := F)) Gen.adm pdats ι defs₀ 𝒱₀ L lv 1)
    (hpre1 : ∀ c : Dev nD, iprop(StableHlo.held (c : Thread nD τ) (Pipeline.ucRefs τ sig) (Gen.V1 m outs c) ∗ E 1 c) ⊢ R1.pre c)
    (hpost1 : ∀ c : Dev nD, R1.post c ⊢ iprop(StableHlo.held (c : Thread nD τ) (Pipeline.ucRefs τ sig) (Gen.V2 m outs c) ∗ E 2 c)) :
    θ_run defs (onTc (τ := τ) (main (F := F))) ⟨m, fun _ => 0, ρ⟩ (fun r => ∀ c : Dev nD,
      r.2.mem ((c.tc : Thread nD τ).loc main_v3) = Gen.V3 m outs c main_v3
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_gen m EP ι 𝒱₀ L lv hL ρ outs pdats O₀ G u₀ hu₀ E hE0 hE2 R0 hpre0 hpost0 R1 hpre1 hpost1
    (hQ := fun s h c =>
      ⟨h c _ (mem_uc main_v3 (by decide)),
        (h c _ (mem_uc main_arg0 (by decide))).trans (Gen.V3_main_arg0 m outs c),
        (h c _ (mem_uc main_arg1 (by decide))).trans (Gen.V3_main_arg1 m outs c)⟩)

/-- The last valuation at the result: the output of region 1, read as a scalar, divided by the constant. -/
theorem V3_main_v3 (outs : Gen.Outs (F := F)) (c : Dev nD) :
    Gen.V3 m outs c main_v3
      = Host.divf (F := F) (shapeCast S_ (outs 2 main_v1 c) Facts₀.shapeCasts_S1x1_S_) (constant (F := F) S_ .f32 0x4C800000#32) := by
  have e : Gen.V2 m outs c main_v1 = outs 2 main_v1 c := Function.update_self _ _ _
  dsimp only [Gen.V3, Gen.hostOps2]
  after_results
  rw [e]
  rfl

/-! ## At the algebra whose rest is the generator register and nothing owed -/

local notation "𝕄" => MT nD τ sig Unit (Elt F) ℕ (UR sig nD τ) ℕ

/-- What rides beside the buffers between two items: the core's generator register at some state, and nothing owed. -/
abbrev Rst (c : Dev nD) : sProp 𝕄 := iprop((∃ r, prngReg c r) ∗ ∃ W, owes (c : Thread nD τ) (0 : CellTallies nD τ sig Unit) W)

/-- The launch element yields the pipelines' launch element and the (empty) ghost resources. -/
theorem hu₀_emb :
    (ownU (initOf (Pipeline.cells cfgs Gen.cellOf_inj) (Pipeline.launchToks cfgs Gen.cellOf_inj)) : sProp 𝕄)
      ⊢ |={Set.univ}=> iprop(BI.own ((emb₁ : Emb (UR sig nD τ) 𝕄) (initOf (Pipeline.cells cfgs Gen.cellOf_inj) (Pipeline.launchToks cfgs Gen.cellOf_inj)))
          ∗ bigSep Finset.univ fun _ : Dev nD => (iprop(emp) : sProp 𝕄)) := by
  iintro Hu; imodintro
  isplitl [Hu]
  · iapply (show (ownU (initOf (Pipeline.cells cfgs Gen.cellOf_inj) (Pipeline.launchToks cfgs Gen.cellOf_inj)) : sProp 𝕄)
        ⊢ BI.own (emb₁ (initOf (Pipeline.cells cfgs Gen.cellOf_inj) (Pipeline.launchToks cfgs Gen.cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core makes the rest on every core: the register kept, nothing owed. -/
theorem hE0_rst (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
        ∗ levAts (fun _ : GSem nD τ sig => (∅ : Finset Unit)) (fun _ _ => (0 : ℕ)))
      ⊢ (|={Set.univ}=> bigSep Finset.univ (Rst (F := F)) : sProp 𝕄) := by
  refine Pipeline.initEach _ _ fun c => ?_
  iintro ⟨⟨-, HO, -, Hp, -⟩, -⟩
  imodintro
  isplitl [Hp]; · iexists _; iexact Hp
  iexists ∅; iexact HO

/-- The rest owes nothing. -/
theorem hE2_rst (c : Dev nD) :
    Rst (F := F) c ⊢ (iprop(∃ W, owes (c : Thread nD τ) (0 : CellTallies nD τ sig Unit) W) : sProp 𝕄) := by
  iintro ⟨-, HO⟩
  iexact HO

set_option backward.isDefEq.respectTransparency.types false in
/-- The arguments end unchanged, given the two regions' records at this algebra. -/
theorem frame_of_regions (ρ : Dev nD → PrngReg) (outs : Gen.Outs (F := F))
    (pdats : (p : Fin 2) → (c : Dev nD) → Pipeline.Dat τ (Elt F) Unit ℕ (UR sig nD τ) ℕ (cfgs p) c)
    (R0 : Pipeline.RegionSeg (pcfgs (F := F)) Gen.adm pdats () defs₀ Variants.none (fun _ => ∅) (fun _ _ => 0) 0)
    (hpre0 : ∀ c : Dev nD, iprop(StableHlo.held (c : Thread nD τ) (Pipeline.ucRefs τ sig) (Gen.V0 m c) ∗ Rst c) ⊢ R0.pre c)
    (hpost0 : ∀ c : Dev nD, R0.post c ⊢ iprop(StableHlo.held (c : Thread nD τ) (Pipeline.ucRefs τ sig) (Gen.V1 m outs c) ∗ Rst c))
    (R1 : Pipeline.RegionSeg (pcfgs (F := F)) Gen.adm pdats () defs₀ Variants.none (fun _ => ∅) (fun _ _ => 0) 1)
    (hpre1 : ∀ c : Dev nD, iprop(StableHlo.held (c : Thread nD τ) (Pipeline.ucRefs τ sig) (Gen.V1 m outs c) ∗ Rst c) ⊢ R1.pre c)
    (hpost1 : ∀ c : Dev nD, R1.post c ⊢ iprop(StableHlo.held (c : Thread nD τ) (Pipeline.ucRefs τ sig) (Gen.V2 m outs c) ∗ Rst c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m (emb₁ : Emb (UR sig nD τ) 𝕄) () Variants.none (fun _ => ∅) (fun _ _ => 0) (fun _ _ => rfl) ρ outs pdats
    (0 : Dev nD → CellTallies nD τ sig Unit) (fun _ => iprop(emp))
    (initOf (Pipeline.cells cfgs Gen.cellOf_inj) (Pipeline.launchToks cfgs Gen.cellOf_inj)) hu₀_emb
    (fun _ c => Rst c) (hE0_rst ρ) hE2_rst R0 hpre0 hpost0 R1 hpre1 hpost1

set_option backward.isDefEq.respectTransparency.types false in
/-- The result holds the last valuation's value and the arguments end unchanged, given the two regions' records at this
    algebra. -/
theorem run_of_regions (ρ : Dev nD → PrngReg) (outs : Gen.Outs (F := F))
    (pdats : (p : Fin 2) → (c : Dev nD) → Pipeline.Dat τ (Elt F) Unit ℕ (UR sig nD τ) ℕ (cfgs p) c)
    (R0 : Pipeline.RegionSeg (pcfgs (F := F)) Gen.adm pdats () defs₀ Variants.none (fun _ => ∅) (fun _ _ => 0) 0)
    (hpre0 : ∀ c : Dev nD, iprop(StableHlo.held (c : Thread nD τ) (Pipeline.ucRefs τ sig) (Gen.V0 m c) ∗ Rst c) ⊢ R0.pre c)
    (hpost0 : ∀ c : Dev nD, R0.post c ⊢ iprop(StableHlo.held (c : Thread nD τ) (Pipeline.ucRefs τ sig) (Gen.V1 m outs c) ∗ Rst c))
    (R1 : Pipeline.RegionSeg (pcfgs (F := F)) Gen.adm pdats () defs₀ Variants.none (fun _ => ∅) (fun _ _ => 0) 1)
    (hpre1 : ∀ c : Dev nD, iprop(StableHlo.held (c : Thread nD τ) (Pipeline.ucRefs τ sig) (Gen.V1 m outs c) ∗ Rst c) ⊢ R1.pre c)
    (hpost1 : ∀ c : Dev nD, R1.post c ⊢ iprop(StableHlo.held (c : Thread nD τ) (Pipeline.ucRefs τ sig) (Gen.V2 m outs c) ∗ Rst c)) :
    θ_run defs (onTc (τ := τ) (main (F := F))) ⟨m, fun _ => 0, ρ⟩ (fun r => ∀ c : Dev nD,
      r.2.mem ((c.tc : Thread nD τ).loc main_v3) = Gen.V3 m outs c main_v3
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m (emb₁ : Emb (UR sig nD τ) 𝕄) () Variants.none (fun _ => ∅) (fun _ _ => 0) (fun _ _ => rfl) ρ outs pdats
    (0 : Dev nD → CellTallies nD τ sig Unit) (fun _ => iprop(emp))
    (initOf (Pipeline.cells cfgs Gen.cellOf_inj) (Pipeline.launchToks cfgs Gen.cellOf_inj)) hu₀_emb
    (fun _ c => Rst c) (hE0_rst ρ) hE2_rst R0 hpre0 hpost0 R1 hpre1 hpost1

end Cert.KernelIdeal.Fr

end
-- ==== Proof.Frames.lean ====
import proofs.«174208_j39316130627934_1_alg».proof.Proof.Reg0
import proofs.«174208_j39316130627934_1_alg».proof.Proof.Reg1
import proofs.«174208_j39316130627934_1_alg».proof.Proof.RunCond

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The two regions chained: the program runs, its arguments end unchanged, its result is read off the last host stretch -/

theorem enter0 (c : Dev nD) :
    (iprop(StableHlo.held (c : Thread nD τ) (Pipeline.ucRefs τ sig) (V0 m c) ∗ Rst c) : sProp 𝕄) ⊢ (reg0 m).pre c := .rfl
theorem leave0 (c : Dev nD) :
    (reg0 m).post c ⊢ (iprop(StableHlo.held (c : Thread nD τ) (Pipeline.ucRefs τ sig) (V1 m (outs m) c) ∗ Rst c) : sProp 𝕄) := by
  rw [V1_eq]; exact .rfl
theorem enter1 (c : Dev nD) :
    (iprop(StableHlo.held (c : Thread nD τ) (Pipeline.ucRefs τ sig) (V1 m (outs m) c) ∗ Rst c) : sProp 𝕄) ⊢ (reg1 m).pre c := by
  rw [V1_eq]; exact .rfl
theorem leave1 (c : Dev nD) :
    (reg1 m).post c ⊢ (iprop(StableHlo.held (c : Thread nD τ) (Pipeline.ucRefs τ sig) (V2 m (outs m) c) ∗ Rst c) : sProp 𝕄) := by
  rw [V2_eq]; exact .rfl

/-- Every weakly fair execution terminates, nothing faults, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_regions m ρ (outs m) (pdats m) (reg0 m) (enter0 m) (leave0 m) (reg1 m) (enter1 m) (leave1 m)

/-- The same run with the result named: the last host stretch applied to what the regions leave. -/
theorem run : θ_run defs (onTc (τ := τ) (main (F := F))) ⟨m, fun _ => 0, ρ⟩ (fun r => ∀ c : Dev nD,
      r.2.mem ((c.tc : Thread nD τ).loc main_v3) = V3 m (outs m) c main_v3
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_of_regions m ρ (outs m) (pdats m) (reg0 m) (enter0 m) (leave0 m) (reg1 m) (enter1 m) (leave1 m)

end Cert.KernelIdeal.Fr
end
-- ==== Proof.KFrame0.lean ====
/- The first kernel of the program (the row normaliser) as one pipelined region with a single grid point.
   Its input array (8192 rows of length 128, f32) is fetched whole into the first staging buffer, the body
   reads that buffer through the whole rectangle, computes the normalised rows (the payload: each row divided
   by the larger of its Euclidean length and a small constant, then narrowed to bf16), and stores them through
   the whole rectangle of the second staging buffer, which the pipeline writes back whole to the output array.
   This module states, at ANY contents the region is entered with, the proof data of that pipeline, the body's
   obligation, and what the two arrays hold when the region is left: the input array is as it was, and the
   output array is the payload of the whole input array. Everything is generic in the float instance. -/
import proofs.«174208_j39316130627934_1_alg».proof.Proof.Gen.Kernel.Launch
import proofs.«174208_j39316130627934_1_alg».proof.Proof.Gen.Kernel.Skeleton
import proofs.«174208_j39316130627934_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## The blocks of the two windows -/

/-- The block of window w at the (only) grid point: the window's view of its array as the region finds it.
    Both windows' blocks are the whole array. -/
def blockIn (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the input block whenever the body runs, for any proof data whose
    input array is the entry contents and whose body leaves the input block in place. -/
theorem beforeIn_of {c : Dev nD} (dat : Dat τ (Elt F) Unit ℕ (UR sig nD τ) ℕ cfg0 c) (hA : dat.A 0 = V c (Pipeline.arrRef spec0 0))
    (hafter : ∀ t, dat.after 0 t = blockIn V c 0 t) (t : Fin cfg0.N) (d) : dat.before 0 t d = blockIn V c 0 t :=
  (dat.before_in_eq_fetched 0 rfl (fun _ => rfl) (fun _ _ _ => rfl) (fun t => by rw [hafter]; unfold Dat.blockOf blockIn; rw [hA]; try rfl) t d).trans
    (by unfold Dat.fetched Dat.blockOf blockIn; rw [hA]; try rfl)

/-! ## The body's one store -/

/-- The whole rectangle of an 8192 x 128 buffer: the body loads and stores through it. -/
abbrev wholeRect : Rect S8192x128 := Rect.unit (s := S8192x128) ![0, 0] S8192x128.size inb_S8192x128_S8192x128_0_0

/-- The output staging buffer after the body, from the input block x: the single store, of the normalised
    rows of what the whole-rectangle load of x reads, laid over the whole rectangle. -/
def outBuf (x : Vec F S8192x128 .f32) : Vec F S8192x128 .bf16 :=
  View.canon [⟨wholeRect, k0_pay1 (View.ld x wholeRect)⟩]

/-- The single store covers the buffer: every index lies in the whole rectangle. -/
theorem cover_whole (p : Vec F S8192x128 .bf16) (y : S8192x128.Idx) :
    ∃ pc ∈ ([⟨wholeRect, p⟩] : List (View.Piece (Elt F) S8192x128 .bf16)), y ∈ pc.1.set :=
  View.cover_of_tiled [⟨wholeRect, p⟩] S8192x128.size (by rfl) y

/-! ## The body's triple -/

set_option maxHeartbeats 1000000 in
/-- The body on two whole staging memrefs, the input's holding x and the output's holding anything, runs to
    the continuation with the input's unchanged and the output's holding outBuf x. The body also reads the
    output buffer before storing; what it reads there is not used. The grid coordinate is not used either. -/
theorem sound_kernel (c : Dev nD) (E : Set ℕ) (i : grid0.Coords)
    (arg1 : Memref sig .tc .vmem S8192x128 .f32) (harg1 : arg1.IsWhole) (arg2 : Memref sig .tc .vmem S8192x128 .bf16) (harg2 : arg2.IsWhole)
    (x : Vec F S8192x128 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (outBuf x)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_whole _)

/-! ## The pipeline's proof data -/

/-- The proof data of this pipeline on core c: the arrays as the region finds them; after the body the input
    staging buffer still holds the input block and the output staging buffer holds outBuf of the input block;
    the invariant is the class's (the scoped rest and the generator register, untouched); nothing is owed;
    full shares. -/
def dat0 (c : Dev nD) : Dat τ (Elt F) Unit ℕ (UR sig nD τ) ℕ cfg0 c where
  A w := V c (Pipeline.arrRef spec0 w)
  after w t := match w with
    | ⟨0, _⟩ => blockIn V c 0 t
    | ⟨1, _⟩ => outBuf (blockIn V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after_in (c : Dev nD) (t : Fin cfg0.N) : (dat0 V c).after 0 t = blockIn V c 0 t := by dsimp only [dat0]
theorem after_out (c : Dev nD) (t : Fin cfg0.N) : (dat0 V c).after 1 t = outBuf (blockIn V c 0 t) := by dsimp only [dat0]

/-- The input staging buffer holds the input block when the body runs. -/
theorem before_in (c : Dev nD) (t : Fin cfg0.N) (d) : (dat0 V c).before 0 t d = blockIn V c 0 t :=
  beforeIn_of V (dat0 V c) (A_eq0 V c 0) (after_in V c) t d

/-! ## The body obligation -/

/-- What the body is called with at point t: the invariant, the tallies, and the two staging buffers, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at the grid point: the input memref holds the input block, so the body's triple applies; the
    invariant and the tallies pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat0 V c).Φ t.succ = (dat0 V c).Φ t.castSucc from rfl,
    show (dat0 V c).owesAt () t.succ = (dat0 V c).owesAt () t.castSucc from rfl,
    after_in, after_out]
  iintro ⟨HΦ, Ho, ⟨%d0, H0⟩, ⟨%d1, H1⟩⟩
  iapply (sound_kernel c Set.univ _ _ _ _ _ (blockIn V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body V c t

/-! ## What the two arrays hold when the region is left -/

/-- The offsets the body's accesses use are zero on both axes. -/
theorem zeros2 : (![0, 0] : Fin 2 → Nat) = fun _ => 0 := funext fun a => by fin_cases a <;> rfl

/-- One store of a payload through the whole rectangle leaves the payload, and a load through the whole
    rectangle reads the buffer: the output buffer after the body is the normalised rows of the input block. -/
theorem outBuf_eq (x : Vec F S8192x128 .f32) : outBuf x = k0_pay1 x := by
  unfold outBuf
  rw [View.canon_unit_zero (S := S8192x128) zeros2, View.ld_unit_zero (S := S8192x128) zeros2]

/-- The input window's only block starts at row 0, column 0 of the input array, -/
theorem off_in (t : Fin cfg0.N) : (fun a => win0_0.index t a * main_arg0.ty.shape.size a) = fun _ => 0 :=
  funext fun a => by
    have h : win0_0.index t a = 0 := by fin_cases a <;> rfl
    rw [h]; exact Nat.zero_mul _

/-- and so does the output window's. -/
theorem off_out (t : Fin cfg0.N) : (fun a => win0_1.index t a * main_v0.ty.shape.size a) = fun _ => 0 :=
  funext fun a => by
    have h : win0_1.index t a = 0 := by fin_cases a <;> rfl
    rw [h]; exact Nat.zero_mul _

/-- The input block is the whole input array: a block of the array's own sizes at zero offsets. -/
theorem blockIn_eq (c : Dev nD) (t : Fin cfg0.N) : blockIn V c 0 t = V c main_arg0 := by
  unfold blockIn
  exact Memref.read_access_unit_zero (Elt F) main_arg0 (off_in t) (fun a => by rw [congrFun (off_in t) a]; simp) (V c main_arg0)

/-- The input array is never written: it ends as the region found it. -/
theorem arr0_in (c : Dev nD) : (dat0 V c).arrAt 0 cfg0.N = V c main_arg0 :=
  ((dat0 V c).arrAt_in 0 rfl cfg0.N).trans (A_eq0 V c 0)

/-- The one grid point writes its output block back, and that block is the whole output array: the array
    ends holding the normalised rows of the whole input array. -/
theorem arr0_out (c : Dev nD) : (dat0 V c).arrAt 1 cfg0.N = k0_pay1 (V c main_arg0) := by
  have hstep := (dat0 V c).arrAt_succ 1 t0_0
  rw [if_pos (flush0_1 t0_0)] at hstep
  refine (show (dat0 V c).arrAt 1 cfg0.N = (dat0 V c).arrAt 1 (t0_0.val + 1) from congrArg _ N_0).trans (hstep.trans ?_)
  have hfl : (dat0 V c).flushed 1 t0_0 = k0_pay1 (V c main_arg0) := by
    show (cfg0.win 1).cut (grid0.coords t0_0) ((dat0 V c).after 1 t0_0) = _
    rw [after_out, outBuf_eq, blockIn_eq]
    rfl
  rw [hfl]
  exact Memref.write_access_unit_zero_univ (Elt F) main_v0 (off_out t0_0) (fun a => by rw [congrFun (off_out t0_0) a]; simp) _ _

end Cert.Kernel.Fr

end
-- ==== Proof.KFrame1Runs.lean ====
import proofs.«174208_j39316130627934_1_alg».proof.Proof.Gen.Kernel.Launch
import proofs.«174208_j39316130627934_1_alg».proof.Proof.Gen.Kernel.Skeleton
import proofs.«174208_j39316130627934_1_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel (the tiled squared-error sum): its branch conditions and its body, run case by case

The grid is 8 × 8, visited in row-major order. The body zeroes the one-element accumulator at the first point,
adds the tile's squared-error sum to it at every point, and copies it to the output block at the last point. -/

/-- The reset branch is taken exactly at the first grid point, -/
abbrev condFirst (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcondFirst : ∀ t : Fin cfg1.N, condFirst (grid1.coords t) ↔ t.val = 0 :=
  (by decide +kernel : ∀ t : Fin grid1.N, condFirst (grid1.coords t) ↔ t.val = 0)
/-- and the write-out branch exactly at the last. -/
abbrev condLast (i : grid1.Coords) : Prop := k1_cond2 i = 1#1
theorem hcondLast : ∀ t : Fin cfg1.N, condLast (grid1.coords t) ↔ t.val = 63 :=
  (by decide +kernel : ∀ t : Fin grid1.N, condLast (grid1.coords t) ↔ t.val = 63)

/-- The whole one-element rectangle every access of the accumulator and of the output block goes through. -/
abbrev r1 : Rect S1x1 := Rect.unit (s := S1x1) ![0, 0] S1x1.size inb_S1x1_S1x1_0_0

theorem hz2 : (![0, 0] : Fin 2 → Nat) = fun _ => 0 := by
  funext a; match a with | ⟨0, _⟩ => rfl | ⟨1, _⟩ => rfl

/-- One store through the whole rectangle covers the buffer, -/
theorem cover11 (p : Vec F S1x1 .f32) (y : S1x1.Idx) :
    ∃ pc ∈ ([⟨r1, p⟩] : List (View.Piece (Elt F) S1x1 .f32)), y ∈ pc.1.set :=
  View.cover_of_tiled [⟨r1, p⟩] S1x1.size (by rfl) y
theorem mem_r1 (y : S1x1.Idx) : y ∈ r1.set := by
  have h : ∀ (off : Fin 2 → Nat) (_ : off = fun _ => 0) (inb : ∀ a, off a + S1x1.size a ≤ S1x1.size a),
      y ∈ (Rect.unit (s := S1x1) off S1x1.size inb).set := by
    intro off h inb; subst h; show y ∈ (Rect.whole S1x1).set; rw [Rect.set_whole]; exact Finset.mem_univ y
  exact h _ hz2 _
/-- and so does any list of stores whose last one goes through it. -/
theorem cover_head (p : Vec F S1x1 .f32) (L : List (View.Piece (Elt F) S1x1 .f32)) (y : S1x1.Idx) :
    ∃ pc ∈ ((⟨r1, p⟩ : View.Piece (Elt F) S1x1 .f32) :: L), y ∈ pc.1.set :=
  ⟨_, List.mem_cons_self .., mem_r1 y⟩

/-! ## The body at a point strictly between the first and the last: the accumulator gains the tile's sum -/

set_option maxHeartbeats 2000000 in
theorem run_mid (c : Dev nD) (E : Set ℕ) (i : grid1.Coords) (h1 : ¬condFirst i) (h2 : ¬condLast i)
    (arg2 : Memref sig .tc .vmem S1024x128 .bf16) (harg2 : arg2.IsWhole) (arg3 : Memref sig .tc .vmem S1024x128 .bf16) (harg3 : arg3.IsWhole)
    (arg4 : Memref sig .tc .vmem S1024x1024 .f32) (harg4 : arg4.IsWhole) (arg5 : Memref sig .tc .vmem S1x1 .f32) (harg5 : arg5.IsWhole)
    (arg6 : Memref sig .tc .vmem S1x1 .f32) (harg6 : arg6.IsWhole)
    (x0 x1 : Vec F S1024x128 .bf16) (x2 : Vec F S1024x1024 .f32) (d5 xs : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (d5) ∗ owns (c : Thread nD τ) arg6 fullShare (k1_pay2 x0 x1 x2 xs)) -∗ K ⟨⟩))
      ⊢ wp frame (wpE (defs₀ (F := F)) Variants.none c none) E (cc1__loss_kernel i arg2 harg2 arg3 harg3 arg4 harg4 arg5 harg5 arg6 harg6) K := by
  simp only [cc1__loss_kernel_eq_skeleton]; unfold cc1__loss_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  subst hf0; subst hf1; subst hf2; subst hf5; subst hf6
  sl_exec (disch := first | exact h1 | exact h2)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H5]; · iexists _; isplitr; · ipureintro; rfl
                  iexact H5
  iexists _; isplitr
  swap; · iexact H6
  ipureintro
  rw [View.read_writes_eq_canon _ _ _ (cover11 _), View.canon_unit_zero hz2]
  simp only [View.readAt_eq_ld]
  rw [View.ld_unit_zero hz2, View.ld_unit_zero hz2, View.ld_unit_zero hz2, View.ld_unit_zero hz2]

/-! ## The body at the first point: the accumulator is zeroed, then gains the tile's sum -/

set_option maxHeartbeats 2000000 in
theorem run_first (c : Dev nD) (E : Set ℕ) (i : grid1.Coords) (h1 : condFirst i) (h2 : ¬condLast i)
    (arg2 : Memref sig .tc .vmem S1024x128 .bf16) (harg2 : arg2.IsWhole) (arg3 : Memref sig .tc .vmem S1024x128 .bf16) (harg3 : arg3.IsWhole)
    (arg4 : Memref sig .tc .vmem S1024x1024 .f32) (harg4 : arg4.IsWhole) (arg5 : Memref sig .tc .vmem S1x1 .f32) (harg5 : arg5.IsWhole)
    (arg6 : Memref sig .tc .vmem S1x1 .f32) (harg6 : arg6.IsWhole)
    (x0 x1 : Vec F S1024x128 .bf16) (x2 : Vec F S1024x1024 .f32) (d5 xs : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (d5) ∗ owns (c : Thread nD τ) arg6 fullShare (k1_pay2 x0 x1 x2 k1_pay1)) -∗ K ⟨⟩))
      ⊢ wp frame (wpE (defs₀ (F := F)) Variants.none c none) E (cc1__loss_kernel i arg2 harg2 arg3 harg3 arg4 harg4 arg5 harg5 arg6 harg6) K := by
  simp only [cc1__loss_kernel_eq_skeleton]; unfold cc1__loss_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  subst hf0; subst hf1; subst hf2; subst hf5; subst hf6
  sl_exec (disch := first | exact h1 | exact h2)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H5]; · iexists _; isplitr; · ipureintro; rfl
                  iexact H5
  iexists _; isplitr
  swap; · iexact H6
  ipureintro
  rw [View.read_writes_eq_canon _ _ _ (cover_head _ _), View.canon_cons_unit_zero hz2]
  sl_unfold_run_names
  simp only [View.readAt_eq_ld]
  rw [View.ld_unit_zero hz2, View.ld_unit_zero hz2, View.ld_unit_zero hz2]
  exact congrArg (k1_pay2 _ _ _) (View.readCov_unit_zero _ hz2 _ _)

/-! ## The body at the last point: the accumulator gains the tile's sum and is copied to the output block -/

set_option maxHeartbeats 2000000 in
theorem run_last (c : Dev nD) (E : Set ℕ) (i : grid1.Coords) (h1 : ¬condFirst i) (h2 : condLast i)
    (arg2 : Memref sig .tc .vmem S1024x128 .bf16) (harg2 : arg2.IsWhole) (arg3 : Memref sig .tc .vmem S1024x128 .bf16) (harg3 : arg3.IsWhole)
    (arg4 : Memref sig .tc .vmem S1024x1024 .f32) (harg4 : arg4.IsWhole) (arg5 : Memref sig .tc .vmem S1x1 .f32) (harg5 : arg5.IsWhole)
    (arg6 : Memref sig .tc .vmem S1x1 .f32) (harg6 : arg6.IsWhole)
    (x0 x1 : Vec F S1024x128 .bf16) (x2 : Vec F S1024x1024 .f32) (d5 xs : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay2 x0 x1 x2 xs) ∗ owns (c : Thread nD τ) arg6 fullShare (k1_pay2 x0 x1 x2 xs)) -∗ K ⟨⟩))
      ⊢ wp frame (wpE (defs₀ (F := F)) Variants.none c none) E (cc1__loss_kernel i arg2 harg2 arg3 harg3 arg4 harg4 arg5 harg5 arg6 harg6) K := by
  simp only [cc1__loss_kernel_eq_skeleton]; unfold cc1__loss_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  subst hf0; subst hf1; subst hf2; subst hf5; subst hf6
  sl_exec (disch := first | exact h1 | exact h2)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H5]
  · iexists _; isplitr
    swap; · iexact H5
    ipureintro
    rw [View.read_writes_eq_canon _ _ _ (cover11 _), View.canon_unit_zero hz2]
    sl_unfold_run_names
    rw [View.readCov_unit_zero _ hz2]
    simp only [View.readAt_eq_ld]
    rw [View.ld_unit_zero hz2, View.ld_unit_zero hz2, View.ld_unit_zero hz2, View.ld_unit_zero hz2]
  iexists _; isplitr
  swap; · iexact H6
  ipureintro
  sl_unfold_run_names
  rw [View.read_writes_eq_canon _ _ _ (cover11 _), View.canon_unit_zero hz2]
  simp only [View.readAt_eq_ld]
  rw [View.ld_unit_zero hz2, View.ld_unit_zero hz2, View.ld_unit_zero hz2, View.ld_unit_zero hz2]

end Cert.Kernel.Fr
end
-- ==== Proof.KFrame1.lean ====
import proofs.«174208_j39316130627934_1_alg».proof.Proof.Gen.Kernel.Launch
import proofs.«174208_j39316130627934_1_alg».proof.Proof.Gen.Kernel.Skeleton
import proofs.«174208_j39316130627934_1_alg».proof.Proof.Gen.Kernel.Points
import proofs.«174208_j39316130627934_1_alg».proof.Proof.KFrame1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel: its proof data over the accumulator, and the body obligation at every grid point

`V` is what the core's buffers hold when the region is entered. Windows 0 and 1 read row blocks of the
normalised rows (one array, read through two windows), window 2 reads a tile of the similarity matrix, window 3
is the one-element output, written back at the last point only. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (when it is not
    fetched the block index has not moved), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Where the output window is idle -/

theorem idle1_3 : ∀ t : Fin cfg1.N, ¬condLast (grid1.coords t) → cfg1.idle 3 (grid1.coords t) = true := by decide +kernel
theorem noFlush1_3 : ∀ t : Fin cfg1.N, ¬condLast (grid1.coords t) → (cfg1.win 3).flush t = false := by decide +kernel
theorem live1_3 : ∀ t : Fin cfg1.N, condLast (grid1.coords t) → cfg1.idle 3 (grid1.coords t) = false := by decide +kernel

/-! ## The accumulator after each point -/

/-- The accumulator's buffer, a scratch of the kernel's own. -/
abbrev scM : Memref sig .tc .vmem S1x1 .f32 := Memref.whole cc1_scratch0

/-- What the accumulator holds after the body at position `n`: the tile's sum added to zero at the first
    point, to what the point before left at every later one. -/
def accAt (c : Dev nD) : (n : ℕ) → n < cfg1.N → Vec F S1x1 .f32
  | 0, hn => k1_pay2 (iblk1 V c 0 ⟨0, hn⟩) (iblk1 V c 1 ⟨0, hn⟩) (iblk1 V c 2 ⟨0, hn⟩) k1_pay1
  | n + 1, hn => k1_pay2 (iblk1 V c 0 ⟨n + 1, hn⟩) (iblk1 V c 1 ⟨n + 1, hn⟩) (iblk1 V c 2 ⟨n + 1, hn⟩) (accAt c n (Nat.lt_of_succ_lt hn))

theorem accAt_first (c : Dev nD) (t : Fin cfg1.N) (hz : t.val = 0) :
    accAt V c t.val t.isLt = k1_pay2 (iblk1 V c 0 t) (iblk1 V c 1 t) (iblk1 V c 2 t) k1_pay1 := by
  obtain ⟨n, hn⟩ := t
  cases n with
  | zero => rfl
  | succ n => exact absurd hz (Nat.succ_ne_zero n)

theorem accAt_later (c : Dev nD) (t : Fin cfg1.N) (hz : t.val ≠ 0) :
    accAt V c t.val t.isLt = k1_pay2 (iblk1 V c 0 t) (iblk1 V c 1 t) (iblk1 V c 2 t)
      (accAt V c (t.val - 1) (Nat.lt_of_le_of_lt (Nat.sub_le _ _) t.isLt)) := by
  obtain ⟨n, hn⟩ := t
  cases n with
  | zero => exact absurd rfl hz
  | succ n => rfl

/-! ## The region's invariant between points -/

/-- The two scoped buffers of the other kernel, at some contents each: untouched here. -/
def otherIn (c : Dev nD) : sProp 𝕄 :=
  iprop(∃ f : Buf (Elt F) ((c : Thread nD τ).loc cc0_stg0_0), ((c : Thread nD τ).loc cc0_stg0_0) ↦{fullShare} f)
def otherOut (c : Dev nD) : sProp 𝕄 :=
  iprop(∃ f : Buf (Elt F) ((c : Thread nD τ).loc cc0_stg1_0), ((c : Thread nD τ).loc cc0_stg1_0) ↦{fullShare} f)

/-- What the launch hands the region: those buffers, the accumulator at anything, the generator register. -/
theorem PhiA1_eq (c : Dev nD) :
    (Pipeline.ΦA spec1 c : sProp 𝕄)
      = iprop((otherIn c ∗ otherOut c ∗ (∃ d, owns (c : Thread nD τ) scM fullShare d)) ∗ (∃ r, prngReg c r)) := by
  unfold Pipeline.ΦA otherIn otherOut; rw [scopedRest1_eq]; simp only [scM, owns_whole]; try rfl

/-- The invariant before position `n`: before the first point what the launch hands over; afterwards the
    accumulator at what the point before left in it. -/
def Phi1 (c : Dev nD) : (n : ℕ) → n ≤ cfg1.N → sProp 𝕄
  | 0, _ => Pipeline.ΦA spec1 c
  | n + 1, hn => iprop((otherIn c ∗ otherOut c ∗ owns (c : Thread nD τ) scM fullShare (accAt V c n hn)) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop((otherIn c ∗ otherOut c ∗ owns (c : Thread nD τ) scM fullShare (accAt V c n hn)) ∗ (∃ r, prngReg c r)) := rfl
theorem Phi1_pos (c : Dev nD) (n : ℕ) (h : n ≤ cfg1.N) (hz : n ≠ 0) :
    Phi1 V c n h = iprop((otherIn c ∗ otherOut c ∗ owns (c : Thread nD τ) scM fullShare (accAt V c (n - 1) (by omega))) ∗ (∃ r, prngReg c r)) := by
  cases n with
  | zero => exact absurd rfl hz
  | succ n => rfl

/-! ## The proof data -/

/-- The proof data of the second pipeline on core `c`: the arrays as the region finds them; after the body each
    input's buffer at its block and the output's at the accumulator; the two windows that read the normalised
    rows hold that array at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => accAt V c t.val t.isLt
  Φ t := Phi1 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = accAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; which of the three cases the point is in is
    read off its position; the invariant hands the body the accumulator at what the point before left (at anything
    at the first point) and takes it back at this point's contents; the output block is handed back as it was
    found except at the last point, where it receives the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  have hN : t.val < 64 := lt_of_lt_of_eq t.isLt (show cfg1.N = 64 from N_1)
  rw [show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from rfl, after1_2]
  by_cases hz : t.val = 0
  · have h1 : condFirst (grid1.coords t) := (hcondFirst t).mpr hz
    have h2 : ¬condLast (grid1.coords t) := fun h => by have := (hcondLast t).mp h; omega
    rw [Dat.leavesExact_idle (dat1 V c) 3 t (idle1_3 t h2) (noFlush1_3 t h2)]
    rw [accAt_first V c t hz, Phi1_castSucc V c t, Phi1_zero V c _ _ hz, PhiA1_eq]
    iintro ⟨⟨⟨HO, HO', ⟨%ds, HS⟩⟩, Hg⟩, Ho, ⟨%d0, H0⟩, ⟨%d1, H1⟩, ⟨%d2, H2⟩, ⟨%d3, H3⟩⟩
    iapply (run_first c Set.univ (grid1.coords t) h1 h2 _ _ _ _ _ _ _ _ scM (Memref.isWhole_whole _)
      (iblk1 V c 0 t) (iblk1 V c 1 t) (iblk1 V c 2 t) ((dat1 V c).before 3 t d3) ds _)
    isplitl [H0]; · iexact H0
    isplitl [H1]; · iexact H1
    isplitl [H2]; · iexact H2
    isplitl [H3]; · iexact H3
    isplitl [HS]; · iexact HS
    iintro ⟨H0, H1, H2, H3, HS⟩
    isplitl [HO HO' HS Hg]
    · isplitr [Hg]
      · isplitl [HO]; · iexact HO
        isplitl [HO']; · iexact HO'
        iexact HS
      · iexact Hg
    isplitl [Ho]; · iexact Ho
    isplitl [H0]; · iexact H0
    isplitl [H1]; · iexact H1
    isplitl [H2]; · iexact H2
    iexists _; iexact H3
  · by_cases hl : t.val = 63
    · have h1 : ¬condFirst (grid1.coords t) := fun h => hz ((hcondFirst t).mp h)
      have h2 : condLast (grid1.coords t) := (hcondLast t).mpr hl
      rw [show (dat1 V c).leavesExact 3 t = owns (c : Thread nD τ) (st1_3 t) fullShare ((dat1 V c).after 3 t) from by
        unfold Dat.leavesExact; rw [live1_3 t h2], after1_3]
      rw [accAt_later V c t hz, Phi1_castSucc V c t, Phi1_pos V c _ _ hz]
      iintro ⟨⟨⟨HO, HO', HS⟩, Hg⟩, Ho, ⟨%d0, H0⟩, ⟨%d1, H1⟩, ⟨%d2, H2⟩, ⟨%d3, H3⟩⟩
      iapply (run_last c Set.univ (grid1.coords t) h1 h2 _ _ _ _ _ _ _ _ scM (Memref.isWhole_whole _)
        (iblk1 V c 0 t) (iblk1 V c 1 t) (iblk1 V c 2 t) ((dat1 V c).before 3 t d3) _ _)
      isplitl [H0]; · iexact H0
      isplitl [H1]; · iexact H1
      isplitl [H2]; · iexact H2
      isplitl [H3]; · iexact H3
      isplitl [HS]; · iexact HS
      iintro ⟨H0, H1, H2, H3, HS⟩
      isplitl [HO HO' HS Hg]
      · isplitr [Hg]
        · isplitl [HO]; · iexact HO
          isplitl [HO']; · iexact HO'
          iexact HS
        · iexact Hg
      isplitl [Ho]; · iexact Ho
      isplitl [H0]; · iexact H0
      isplitl [H1]; · iexact H1
      isplitl [H2]; · iexact H2
      iexact H3
    · have h1 : ¬condFirst (grid1.coords t) := fun h => hz ((hcondFirst t).mp h)
      have h2 : ¬condLast (grid1.coords t) := fun h => hl ((hcondLast t).mp h)
      rw [Dat.leavesExact_idle (dat1 V c) 3 t (idle1_3 t h2) (noFlush1_3 t h2)]
      rw [accAt_later V c t hz, Phi1_castSucc V c t, Phi1_pos V c _ _ hz]
      iintro ⟨⟨⟨HO, HO', HS⟩, Hg⟩, Ho, ⟨%d0, H0⟩, ⟨%d1, H1⟩, ⟨%d2, H2⟩, ⟨%d3, H3⟩⟩
      iapply (run_mid c Set.univ (grid1.coords t) h1 h2 _ _ _ _ _ _ _ _ scM (Memref.isWhole_whole _)
        (iblk1 V c 0 t) (iblk1 V c 1 t) (iblk1 V c 2 t) ((dat1 V c).before 3 t d3) _ _)
      isplitl [H0]; · iexact H0
      isplitl [H1]; · iexact H1
      isplitl [H2]; · iexact H2
      isplitl [H3]; · iexact H3
      isplitl [HS]; · iexact HS
      iintro ⟨H0, H1, H2, H3, HS⟩
      isplitl [HO HO' HS Hg]
      · isplitr [Hg]
        · isplitl [HO]; · iexact HO
          isplitl [HO']; · iexact HO'
          iexact HS
        · iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr
end
-- ==== Proof.KEntry.lean ====
import proofs.«174208_j39316130627934_1_alg».proof.Proof.KFrame0
import proofs.«174208_j39316130627934_1_alg».proof.Proof.KFrame1
import proofs.«174208_j39316130627934_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the two regions find and leave

The first region is entered from the launch memory and leaves the normalised rows in `main_v0`; the second is
entered from that and leaves the accumulated sum in `main_v1`. -/

variable (m : (ℓ : Loc nD τ sig) → Buf (Elt F) ℓ)

/-- The first region's entry contents: the launch memory. -/
abbrev Ve0 : (c : Dev nD) → (b : Ref sig .tc) → Buf (Elt F) ((c : Thread nD τ).loc b) := fun c b => V0 m c b

/-- What the first region leaves in `main_v0`. -/
def out0 (c : Dev nD) : Buf (Elt F) ((c : Thread nD τ).loc main_v0) := (dat0 (Ve0 m) c).arrAt 1 cfg0.N

/-- The buffers after the first region: `main_v0` at what it leaves, the others as launched. -/
abbrev W1 (c : Dev nD) : Valuation τ sig (Elt F) := Function.update (V0 m c) main_v0 (out0 m c)

/-- The second region's entry contents. -/
abbrev Ve1 : (c : Dev nD) → (b : Ref sig .tc) → Buf (Elt F) ((c : Thread nD τ).loc b) := fun c b => W1 m c b

/-- What the second region leaves in `main_v1`. -/
def out1 (c : Dev nD) : Buf (Elt F) ((c : Thread nD τ).loc main_v1) := (dat1 (Ve1 m) c).arrAt 3 cfg1.N

/-- The buffers after the second region. -/
abbrev W2 (c : Dev nD) : Valuation τ sig (Elt F) := Function.update (W1 m c) main_v1 (out1 m c)

/-- What the regions leave, as the table the host side of the run is stated over. -/
def outs : Outs (F := F) := fun _ r c => W2 m c r

theorem outs_v0 (c : Dev nD) : outs m 1 main_v0 c = out0 m c := by
  unfold outs
  show Function.update (Function.update (V0 m c) main_v0 (out0 m c)) main_v1 (out1 m c) (Proc.devRef .tc main_v0) = out0 m c
  rw [Function.update_of_ne (StableHlo.devRef_ne_of_ne (by decide) : (Proc.devRef .tc main_v0 : DevRef τ sig) ≠ Proc.devRef .tc main_v1)]
  exact Function.update_self ..
theorem outs_v1 (c : Dev nD) : outs m 2 main_v1 c = out1 m c := by
  unfold outs
  show Function.update (W1 m c) main_v1 (out1 m c) (Proc.devRef .tc main_v1) = out1 m c
  exact Function.update_self ..

theorem V1_eq (c : Dev nD) : V1 m (outs m) c = W1 m c := by
  show Function.update (V0 m c) main_v0 (outs m 1 main_v0 c) = _; rw [outs_v0]
theorem V2_eq (c : Dev nD) : V2 m (outs m) c = W2 m c := by
  show Function.update (V1 m (outs m) c) main_v1 (outs m 2 main_v1 c) = _; rw [outs_v1, V1_eq]

/-- Both pipelines' proof data, each at its region's entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

/-- What rides beside the buffers through every segment: the generator register at some state, nothing owed. -/
abbrev Rest (c : Dev nD) : sProp 𝕄 := iprop((∃ r, prngReg c r) ∗ ∃ W, owes (c : Thread nD τ) (0 : CellTallies nD τ sig Unit) W)

end Cert.Kernel.Fr
end
-- ==== Proof.KReg0.lean ====
/- The first kernel region as a segment of the run. The region is entered with every unscoped buffer of the
   core held at the launch memory; it takes its two arrays (the input rows and the normalised-rows output) out of
   those buffers, runs the pipeline, and gives every unscoped buffer back: the output array at what the pipeline's
   write-back leaves, every other buffer (the input array among them) as launched. The generator register goes
   into the pipeline's invariant and comes out again; the core owes nothing before or after; the kernel has no
   semaphore of its own. -/
import proofs.«174208_j39316130627934_1_alg».proof.Proof.KEntry

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is left -/

/-- The input array and the output array are different buffers. -/
theorem arg0_ne_v0 : (Proc.devRef .tc main_arg0 : DevRef τ sig) ≠ Proc.devRef .tc main_v0 :=
  StableHlo.devRef_ne_of_ne (by decide)

/-- When the region is left each of its two arrays holds what the pipeline leaves there: the input array its
    launch contents (it is never written), the output array what the one write-back wrote. -/
theorem exit_arrays (c : Dev nD) (w : Fin cfg0.W) :
    (pdats m 0 c).arrAt w cfg0.N = W1 m c (Pipeline.arrRef spec0 w) := by
  match w with
  | ⟨0, _⟩ =>
    show (dat0 (Ve0 m) c).arrAt 0 cfg0.N = Function.update (V0 m c) main_v0 (out0 m c) main_arg0
    rw [Function.update_of_ne arg0_ne_v0]
    exact arr0_in (Ve0 m) c
  | ⟨1, _⟩ =>
    show (dat0 (Ve0 m) c).arrAt 1 cfg0.N = Function.update (V0 m c) main_v0 (out0 m c) main_v0
    rw [Function.update_self]
    rfl

/-- Every buffer that is neither of the region's arrays is as launched. -/
theorem exit_rest (c : Dev nD) : ∀ b : Ref sig .tc, b ∉ Finset.univ.image (Pipeline.arrRef spec0) → W1 m c b = V0 m c b :=
  fun b hb => Function.update_of_ne
    (StableHlo.devRef_ne_of_ne fun e => hb (Finset.mem_image.mpr ⟨1, Finset.mem_univ _, e.symm⟩)) _ _

/-! ## The region as a segment -/

set_option backward.isDefEq.respectTransparency.types false in
/-- The first region over the thread state: entered from every unscoped buffer at the launch memory, left with
    the output array at the normalised rows and everything else unchanged. -/
def reg0 : Pipeline.RegionSeg (pcfgs (F := F)) Gen.adm (pdats m) () defs₀ Variants.none (fun _ => ∅) (fun _ _ => 0) 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ (fun _ => ∅) (fun _ _ => 0) 0 fun _ _ => rfl
  pre c := iprop(StableHlo.held (c : Thread nD τ) (Pipeline.ucRefs τ sig) (V0 m c) ∗ Rest c)
  post c := iprop(StableHlo.held (c : Thread nD τ) (Pipeline.ucRefs τ sig) (W1 m c) ∗ Rest c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (exit_arrays m c) (exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the region is entered from, -/
theorem reg0_pre (c : Dev nD) : (reg0 m).pre c = iprop(StableHlo.held (c : Thread nD τ) (Pipeline.ucRefs τ sig) (V0 m c) ∗ Rest c) := rfl
/-- and what it is left at. -/
theorem reg0_post (c : Dev nD) : (reg0 m).post c = iprop(StableHlo.held (c : Thread nD τ) (Pipeline.ucRefs τ sig) (W1 m c) ∗ Rest c) := rfl

end Cert.Kernel.Fr

end
-- ==== Proof.KArr1.lean ====
/-
  What the second region leaves in its four arrays, at any contents it is entered with and for any float
  instance.  The three input arrays (the normalised rows, read through two windows, and the similarity
  matrix) are never written.  The output array has one element; only the last of the 64 grid points writes
  its block back, and that block is the whole array: it ends holding what the accumulator holds after the
  last point.
-/
import proofs.«174208_j39316130627934_1_alg».proof.Proof.KFrame1
import Idealize.ShloMosaic.Lib.Pipeline.Value

set_option maxRecDepth 16384

noncomputable section

namespace Cert.Kernel.Fr

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The input arrays -/

/-- The normalised rows, as the first window reads them, are never written. -/
theorem arr1_in0 (c : Dev nD) : (dat1 V c).arrAt 0 cfg1.N = V c main_v0 :=
  ((dat1 V c).arrAt_in 0 rfl cfg1.N).trans (A_eq1 V c 0)

/-- The same array, as the second window reads it. -/
theorem arr1_in1 (c : Dev nD) : (dat1 V c).arrAt 1 cfg1.N = V c main_v0 :=
  ((dat1 V c).arrAt_in 1 rfl cfg1.N).trans (A_eq1 V c 1)

/-- The similarity matrix is never written. -/
theorem arr1_in2 (c : Dev nD) : (dat1 V c).arrAt 2 cfg1.N = V c main_arg1 :=
  ((dat1 V c).arrAt_in 2 rfl cfg1.N).trans (A_eq1 V c 2)

/-! ## The output array -/

/-- Position 63 is a point of the 8 × 8 grid. -/
theorem lastLt : 63 < cfg1.N := by rw [show cfg1.N = 64 from N_1]; decide

/-- The last grid point, (7, 7), at position 63 of the row-major order. -/
def tLast : Fin cfg1.N := ⟨63, lastLt⟩

/-- The output window's only block starts at row 0, column 0 of the one-element output array. -/
theorem off_out1 (t : Fin cfg1.N) : (fun a => win1_3.index t a * main_v1.ty.shape.size a) = fun _ => 0 :=
  funext fun a => by
    have h : win1_3.index t a = 0 := by fin_cases a <;> rfl
    rw [h]; exact Nat.zero_mul _

/-- Only the last point writes the output block back, and the block is the whole array: it ends holding the
    accumulator's contents after the last point. -/
theorem arr1_out (c : Dev nD) : (dat1 V c).arrAt 3 cfg1.N = accAt V c 63 lastLt := by
  have hstep := (dat1 V c).arrAt_succ 3 tLast
  rw [if_pos ((flush1_3 tLast).mpr rfl)] at hstep
  refine (show (dat1 V c).arrAt 3 cfg1.N = (dat1 V c).arrAt 3 (tLast.val + 1) from congrArg _ N_1).trans (hstep.trans ?_)
  have hfl : (dat1 V c).flushed 3 tLast = accAt V c 63 lastLt := by
    show (cfg1.win 3).cut (grid1.coords tLast) ((dat1 V c).after 3 tLast) = _
    rw [after1_3]
    rfl
  rw [hfl]
  exact Memref.write_access_unit_zero_univ (Elt F) main_v1 (off_out1 tLast) (fun a => by rw [congrFun (off_out1 tLast) a]; simp) _ _

end Cert.Kernel.Fr

end
-- ==== Proof.KReg1.lean ====
import proofs.«174208_j39316130627934_1_alg».proof.Proof.KEntry
import proofs.«174208_j39316130627934_1_alg».proof.Proof.KArr1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays

variable (V : (c : Dev nD) → (b : Ref sig .tc) → Buf (Elt F) ((c : Thread nD τ).loc b))

/-! # The second region's arrays: one buffer read through two windows

The normalised rows sit in ONE buffer that windows 0 and 1 both read. At the region's entry the buffer, held whole,
is split into the two halves of the full share, one per window; at the exit the halves are joined again. -/

theorem share1_0 (c : Dev nD) : (dat1 V c).share 0 = fullShare.left := rfl
theorem share1_1 (c : Dev nD) : (dat1 V c).share 1 = fullShare.right := rfl
theorem share1_2 (c : Dev nD) : (dat1 V c).share 2 = fullShare := rfl
theorem share1_3 (c : Dev nD) : (dat1 V c).share 3 = fullShare := rfl

theorem arrSet1 (w : Fin 4) : (cfg1.win w).arr.view.set = Finset.univ := (arr_whole1 w).set_eq_univ

/-- The three distinct buffers behind the four windows, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v0) ↦{fullShare} V' main_v0) ∗ (((c : Thread nD τ).loc main_arg1) ↦{fullShare} V' main_arg1)
          ∗ (((c : Thread nD τ).loc main_v1) ↦{fullShare} V' main_v1)) := by
  unfold Pipeline.arrBufs
  exact bigSep_eq_bigSepL_of_eq [main_v0, main_arg1, main_v1] (by decide) (by decide) _

/-- ENTRY: those buffers, each whole at `V`, are the pipeline's arrays at entry. -/
theorem arrays1_entry (c : Dev nD) :
    (Pipeline.arrBufs (Ix := Unit) (Name := ℕ) (U := UR sig nD τ) (Lvl := ℕ) spec1 c (V c) : sProp 𝕄) ⊢ (dat1 V c).arrays ((dat1 V c).arrAt · 0) := by
  rw [arrBufs1_eq]
  unfold Dat.arrays
  rw [bigSep_W1]
  rw [arrSet1 0, arrSet1 2, arrSet1 3, share1_0, share1_1, share1_2, share1_3]
  iintro ⟨H0, H1, H3⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  iexact H3

/-- EXIT: the arrays at contents that agree with a valuation `V'` are the three buffers whole at `V'`. -/
theorem arrays1_exit (c : Dev nD) (V' : (b : Ref sig .tc) → Buf (Elt F) ((c : Thread nD τ).loc b))
    (G : (w : Fin cfg1.W) → Buf (Elt F) ((cfg1.win w).arr.view.loc (c : Thread nD τ)))
    (h0 : G 0 = V' main_v0) (h1 : G 1 = V' main_v0) (h2 : G 2 = V' main_arg1) (h3 : G 3 = V' main_v1) :
    (dat1 V c).arrays G ⊢ (Pipeline.arrBufs (Ix := Unit) (Name := ℕ) (U := UR sig nD τ) (Lvl := ℕ) spec1 c V' : sProp 𝕄) := by
  rw [arrBufs1_eq]
  unfold Dat.arrays
  rw [bigSep_W1]
  rw [arrSet1 0, arrSet1 2, arrSet1 3, share1_0, share1_1, share1_2, share1_3, h0, h1, h2, h3]
  iintro ⟨Hl, Hr, H1, H3⟩
  isplitl [Hl Hr]
  · iapply (pointsTo_share (PosShare.mem_left_op_right fullShare)).2
    isplitl [Hl]; · iexact Hl
    iexact Hr
  isplitl [H1]; · iexact H1
  iexact H3

/-- After the last point the invariant gives back what the launch handed over: the accumulator's contents are forgotten. -/
theorem Phi1_last (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 64 := N_1; omega), PhiA1_eq]
  iintro ⟨⟨HO, HO', HS⟩, Hg⟩
  isplitl [HO HO' HS]
  · isplitl [HO]; · iexact HO
    isplitl [HO']; · iexact HO'
    iexists _; iexact HS
  iexact Hg

end Arrays

variable (m : (ℓ : Loc nD τ sig) → Buf (Elt F) ℓ)

theorem v0_ne_v1 : (Proc.devRef .tc main_v0 : DevRef τ sig) ≠ Proc.devRef .tc main_v1 := StableHlo.devRef_ne_of_ne (by decide)
theorem arg1_ne_v1 : (Proc.devRef .tc main_arg1 : DevRef τ sig) ≠ Proc.devRef .tc main_v1 := StableHlo.devRef_ne_of_ne (by decide)

/-- Off the output `main_v1` the second region changes nothing. -/
theorem W2_rest (c : Dev nD) (b : Ref sig .tc) (hb : b ∉ Finset.univ.image (Pipeline.arrRef spec1)) : W2 m c b = W1 m c b := by
  have hne : b ≠ main_v1 := fun e => hb (Finset.mem_image.mpr ⟨3, Finset.mem_univ _, e.symm⟩)
  exact Function.update_of_ne (StableHlo.devRef_ne_of_ne hne) ..

-- the library's lemmas are stated over the pinned configuration; unifying them with the printed one unfolds plain definitions
set_option backward.isDefEq.respectTransparency.types false in
/-- THE SECOND REGION as a segment: entered from every unscoped buffer at `W1`, left at `W2`. Its arrays are split
    out of the unscoped buffers (the shared buffer into two half shares) and put back; the generator register goes
    into the invariant and comes out; nothing is owed; the kernel has no semaphore of its own. -/
def reg1 : Pipeline.RegionSeg (pcfgs (F := F)) adm (pdats m) () defs₀ Variants.none (fun _ => ∅) (fun _ _ => 0) 1 where
  win := winFacts₀1
  block_pos := block_pos1
  stage_whole := stage_whole1
  K := PEmpty
  osem k := k.elim
  ho := Pipeline.OwnSemFacts.none _
  hbody c := (body_obligation1 (Ve1 m) c).loose
  hwaits := Pipeline.hwaits_of_owed_zero _ _ _ _ (fun _ => ∅) (fun _ _ => 0) 1 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit : (StableHlo.held (c : Thread nD τ) (Pipeline.ucRefs τ sig) (W1 m c) : sProp 𝕄)
        ⊢ iprop((pdats m 1 c).arrays ((pdats m 1 c).arrAt · 0) ∗ Pipeline.unscopedRest spec1 c (Ve1 m c)) := by
      rw [← Pipeline.unscopedBufs_held (Ix := Unit) (Name := ℕ) (U := UR sig nD τ) (Lvl := ℕ) c (W1 m c),
        Pipeline.unscopedBufs_split₀ cfgs 1 winFacts₀1.arr_unscoped c]
      exact BIClass.sep_mono (arrays1_entry (Ve1 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Phi1_last (Ve1 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Ve1 m c))
        ⊢ (StableHlo.held (c : Thread nD τ) (Pipeline.ucRefs τ sig) (W2 m c) : sProp 𝕄) := by
      rw [← Pipeline.unscopedBufs_held (Ix := Unit) (Name := ℕ) (U := UR sig nD τ) (Lvl := ℕ) c (W2 m c),
        Pipeline.unscopedBufs_split₀ cfgs 1 winFacts₀1.arr_unscoped c]
      refine BIClass.sep_mono (arrays1_exit (Ve1 m) c (fun b => W2 m c b) _
        ((arr1_in0 (Ve1 m) c).trans (Function.update_of_ne v0_ne_v1 ..).symm)
        ((arr1_in1 (Ve1 m) c).trans (Function.update_of_ne v0_ne_v1 ..).symm)
        ((arr1_in2 (Ve1 m) c).trans (Function.update_of_ne arg1_ne_v1 ..).symm)
        ((show (pdats m 1 c).arrAt 3 cfg1.N = out1 m c from rfl).trans (outs_v1 m c).symm)) (Entails.of_eq ?_)
      unfold Pipeline.unscopedRest
      exact bigSep_congr fun b hb => congrArg (fun f => ((((c : Thread nD τ).loc b) ↦{fullShare} f) : sProp 𝕄)) (W2_rest m c b (Finset.mem_sdiff.mp hb).2).symm
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg1_pre (c : Dev nD) : (reg1 m).pre c = iprop(StableHlo.held (c : Thread nD τ) (Pipeline.ucRefs τ sig) (W1 m c) ∗ Rest c) := rfl
theorem reg1_post (c : Dev nD) : (reg1 m).post c = iprop(StableHlo.held (c : Thread nD τ) (Pipeline.ucRefs τ sig) (W2 m c) ∗ Rest c) := rfl

end Cert.Kernel.Fr
end
-- ==== Proof.KRunCond.lean ====
/-
  The run of the two-region program, given the regions' records.

  Between two items of the program each core holds every unscoped buffer whole, at the contents the valuations
  `V0 … V3` name (the launch contents; then what region 0 leaves in its output; then what region 1 leaves in
  its output; then the three host operations applied), beside a rest.  Given one record per region entered from
  the state before it and left at the state after it, every weakly fair execution terminates, and at the end the
  memory holds, at every unscoped buffer, the last valuation's contents (`run_gen`).  Read at the result and at
  the two arguments this is `run_cond`: the result holds the last valuation's value, the arguments their launch
  contents.  The last valuation at the result is the division of the reshaped output of region 1 by the constant
  (`V3_main_v3`).  Last, both statements at the algebra in which the rest is "the generator register at some
  state, nothing owed" (`frame_of_regions`, `run_of_regions`).
-/
import proofs.«174208_j39316130627934_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- An unscoped TensorCore reference is among the unscoped references. -/
theorem mem_uc (r : Ref sig .tc) (h : ¬(Proc.devRef (τ := τ) .tc r).isScoped = true) :
    Proc.devRef (τ := τ) .tc r ∈ Pipeline.ucRefs τ sig :=
  Finset.mem_filter.mpr ⟨StableHlo.devRef_mem_tcRefs r, h⟩

set_option backward.isDefEq.respectTransparency.types false in
/-- Given the regions' records, every weakly fair execution from memory `m` with zero counters terminates, and any
    property of the final memory that follows from "every unscoped buffer of every core holds the last valuation's
    contents" holds of it. -/
theorem run_gen {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Gen.Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs Gen.cellOf_inj) (Pipeline.launchToks cfgs Gen.cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) Gen.adm pdats ι defs₀ 𝒱₀ L lv 0)
    (hpre0 : ∀ c : Dev nD, iprop(StableHlo.held (c : Thread nD τ) (Pipeline.ucRefs τ sig) (Gen.V0 m c) ∗ E 0 c) ⊢ R0.pre c)
    (hpost0 : ∀ c : Dev nD, R0.post c ⊢ iprop(StableHlo.held (c : Thread nD τ) (Pipeline.ucRefs τ sig) (Gen.V1 m outs c) ∗ E 1 c))
    (R1 : RegionSeg (pcfgs (F := F)) Gen.adm pdats ι defs₀ 𝒱₀ L lv 1)
    (hpre1 : ∀ c : Dev nD, iprop(StableHlo.held (c : Thread nD τ) (Pipeline.ucRefs τ sig) (Gen.V1 m outs c) ∗ E 1 c) ⊢ R1.pre c)
    (hpost1 : ∀ c : Dev nD, R1.post c ⊢ iprop(StableHlo.held (c : Thread nD τ) (Pipeline.ucRefs τ sig) (Gen.V2 m outs c) ∗ E 2 c))
    {Q : PUnit × MemSt nD τ sig (Elt F) → Prop}
    (hQ : ∀ s : MemSt nD τ sig (Elt F),
      (∀ c : Dev nD, ∀ b ∈ Pipeline.ucRefs τ sig, s.mem ((c : Thread nD τ).1, b) = Gen.V3 m outs c b) → Q (⟨⟩, s)) :
    θ_run defs (onTc (τ := τ) (main (F := F))) ⟨m, fun _ => 0, ρ⟩ Q := by
  refine Pipeline.θ_run_regions_kit_dev (pcfgs (F := F)) Gen.adm pdats ι Gen.cellOf_inj EP defs₀ 𝒱₀ L lv m ρ main
    (Gen.segs m outs 𝒱₀ L lv E ι pdats R0 R1)
    (fun c Q => by
      rewrite [Gen.main_chain c, Seg.run_eq_chain,
        show (Gen.segs m outs 𝒱₀ L lv E ι pdats R0 R1 c).map Seg.prog = [
          Prog.lift (.customCall (Pipeline.entry 0) ()),
          Prog.lift (.customCall (Pipeline.entry 1) ()),
          StableHlo.seq Gen.hostOps2 ] from rfl]
      exact .rfl)
    (fun c => by simp only [Gen.segs, Seg.pipes_host, Seg.pipes_region, Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V3 m outs c))
    (hch := fun c => ⟨hpre0 c, (hpost0 c).trans (hpre1 c), hpost1 c, sep_mono .rfl (hE2 c)⟩)
    (hinit := ?_)
    (QY := fun c s => ∀ b ∈ Pipeline.ucRefs τ sig, s.mem ((c : Thread nD τ).1, b) = Gen.V3 m outs c b)
    (hfin := fun c s' => ?_) (hQ := hQ)
  · -- the launch: the unscoped buffers are held at the launch contents; the rest is made on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (Gen.V3 m outs c) s')
    isplitl [Hh] <;> iassumption

set_option backward.isDefEq.respectTransparency.types false in
/-- Given the regions' records, every weakly fair execution from memory `m` with zero counters terminates, and at the
    end the result buffer holds the last valuation's value and each argument its launch contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Gen.Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs Gen.cellOf_inj) (Pipeline.launchToks cfgs Gen.cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) Gen.adm pdats ι defs₀ 𝒱₀ L lv 0)
    (hpre0 : ∀ c : Dev nD, iprop(StableHlo.held (c : Thread nD τ) (Pipeline.ucRefs τ sig) (Gen.V0 m c) ∗ E 0 c) ⊢ R0.pre c)
    (hpost0 : ∀ c : Dev nD, R0.post c ⊢ iprop(StableHlo.held (c : Thread nD τ) (Pipeline.ucRefs τ sig) (Gen.V1 m outs c) ∗ E 1 c))
    (R1 : RegionSeg (pcfgs (F := F)) Gen.adm pdats ι defs₀ 𝒱₀ L lv 1)
    (hpre1 : ∀ c : Dev nD, iprop(StableHlo.held (c : Thread nD τ) (Pipeline.ucRefs τ sig) (Gen.V1 m outs c) ∗ E 1 c) ⊢ R1.pre c)
    (hpost1 : ∀ c : Dev nD, R1.post c ⊢ iprop(StableHlo.held (c : Thread nD τ) (Pipeline.ucRefs τ sig) (Gen.V2 m outs c) ∗ E 2 c)) :
    θ_run defs (onTc (τ := τ) (main (F := F))) ⟨m, fun _ => 0, ρ⟩ (fun r => ∀ c : Dev nD,
      r.2.mem ((c.tc : Thread nD τ).loc main_v3) = Gen.V3 m outs c main_v3
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_gen m EP ι 𝒱₀ L lv hL ρ outs pdats O₀ G u₀ hu₀ E hE0 hE2 R0 hpre0 hpost0 R1 hpre1 hpost1
    (hQ := fun s h c =>
      ⟨h c _ (mem_uc main_v3 (by decide)),
        (h c _ (mem_uc main_arg0 (by decide))).trans (Gen.V3_main_arg0 m outs c),
        (h c _ (mem_uc main_arg1 (by decide))).trans (Gen.V3_main_arg1 m outs c)⟩)

/-- The last valuation at the result: the output of region 1, read as a scalar, divided by the constant. -/
theorem V3_main_v3 (outs : Gen.Outs (F := F)) (c : Dev nD) :
    Gen.V3 m outs c main_v3
      = Host.divf (F := F) (shapeCast S_ (outs 2 main_v1 c) Facts₀.shapeCasts_S1x1_S_) (constant (F := F) S_ .f32 0x4C800000#32) := by
  have e : Gen.V2 m outs c main_v1 = outs 2 main_v1 c := Function.update_self _ _ _
  dsimp only [Gen.V3, Gen.hostOps2]
  after_results
  rw [e]
  rfl

/-! ## At the algebra whose rest is the generator register and nothing owed -/

local notation "𝕄" => MT nD τ sig Unit (Elt F) ℕ (UR sig nD τ) ℕ

/-- What rides beside the buffers between two items: the core's generator register at some state, and nothing owed. -/
abbrev Rst (c : Dev nD) : sProp 𝕄 := iprop((∃ r, prngReg c r) ∗ ∃ W, owes (c : Thread nD τ) (0 : CellTallies nD τ sig Unit) W)

/-- The launch element yields the pipelines' launch element and the (empty) ghost resources. -/
theorem hu₀_emb :
    (ownU (initOf (Pipeline.cells cfgs Gen.cellOf_inj) (Pipeline.launchToks cfgs Gen.cellOf_inj)) : sProp 𝕄)
      ⊢ |={Set.univ}=> iprop(BI.own ((emb₁ : Emb (UR sig nD τ) 𝕄) (initOf (Pipeline.cells cfgs Gen.cellOf_inj) (Pipeline.launchToks cfgs Gen.cellOf_inj)))
          ∗ bigSep Finset.univ fun _ : Dev nD => (iprop(emp) : sProp 𝕄)) := by
  iintro Hu; imodintro
  isplitl [Hu]
  · iapply (show (ownU (initOf (Pipeline.cells cfgs Gen.cellOf_inj) (Pipeline.launchToks cfgs Gen.cellOf_inj)) : sProp 𝕄)
        ⊢ BI.own (emb₁ (initOf (Pipeline.cells cfgs Gen.cellOf_inj) (Pipeline.launchToks cfgs Gen.cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core makes the rest on every core: the register kept, nothing owed. -/
theorem hE0_rst (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
        ∗ levAts (fun _ : GSem nD τ sig => (∅ : Finset Unit)) (fun _ _ => (0 : ℕ)))
      ⊢ (|={Set.univ}=> bigSep Finset.univ (Rst (F := F)) : sProp 𝕄) := by
  refine Pipeline.initEach _ _ fun c => ?_
  iintro ⟨⟨-, HO, -, Hp, -⟩, -⟩
  imodintro
  isplitl [Hp]; · iexists _; iexact Hp
  iexists ∅; iexact HO

/-- The rest owes nothing. -/
theorem hE2_rst (c : Dev nD) :
    Rst (F := F) c ⊢ (iprop(∃ W, owes (c : Thread nD τ) (0 : CellTallies nD τ sig Unit) W) : sProp 𝕄) := by
  iintro ⟨-, HO⟩
  iexact HO

set_option backward.isDefEq.respectTransparency.types false in
/-- The arguments end unchanged, given the two regions' records at this algebra. -/
theorem frame_of_regions (ρ : Dev nD → PrngReg) (outs : Gen.Outs (F := F))
    (pdats : (p : Fin 2) → (c : Dev nD) → Pipeline.Dat τ (Elt F) Unit ℕ (UR sig nD τ) ℕ (cfgs p) c)
    (R0 : Pipeline.RegionSeg (pcfgs (F := F)) Gen.adm pdats () defs₀ Variants.none (fun _ => ∅) (fun _ _ => 0) 0)
    (hpre0 : ∀ c : Dev nD, iprop(StableHlo.held (c : Thread nD τ) (Pipeline.ucRefs τ sig) (Gen.V0 m c) ∗ Rst c) ⊢ R0.pre c)
    (hpost0 : ∀ c : Dev nD, R0.post c ⊢ iprop(StableHlo.held (c : Thread nD τ) (Pipeline.ucRefs τ sig) (Gen.V1 m outs c) ∗ Rst c))
    (R1 : Pipeline.RegionSeg (pcfgs (F := F)) Gen.adm pdats () defs₀ Variants.none (fun _ => ∅) (fun _ _ => 0) 1)
    (hpre1 : ∀ c : Dev nD, iprop(StableHlo.held (c : Thread nD τ) (Pipeline.ucRefs τ sig) (Gen.V1 m outs c) ∗ Rst c) ⊢ R1.pre c)
    (hpost1 : ∀ c : Dev nD, R1.post c ⊢ iprop(StableHlo.held (c : Thread nD τ) (Pipeline.ucRefs τ sig) (Gen.V2 m outs c) ∗ Rst c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m (emb₁ : Emb (UR sig nD τ) 𝕄) () Variants.none (fun _ => ∅) (fun _ _ => 0) (fun _ _ => rfl) ρ outs pdats
    (0 : Dev nD → CellTallies nD τ sig Unit) (fun _ => iprop(emp))
    (initOf (Pipeline.cells cfgs Gen.cellOf_inj) (Pipeline.launchToks cfgs Gen.cellOf_inj)) hu₀_emb
    (fun _ c => Rst c) (hE0_rst ρ) hE2_rst R0 hpre0 hpost0 R1 hpre1 hpost1

set_option backward.isDefEq.respectTransparency.types false in
/-- The result holds the last valuation's value and the arguments end unchanged, given the two regions' records at this
    algebra. -/
theorem run_of_regions (ρ : Dev nD → PrngReg) (outs : Gen.Outs (F := F))
    (pdats : (p : Fin 2) → (c : Dev nD) → Pipeline.Dat τ (Elt F) Unit ℕ (UR sig nD τ) ℕ (cfgs p) c)
    (R0 : Pipeline.RegionSeg (pcfgs (F := F)) Gen.adm pdats () defs₀ Variants.none (fun _ => ∅) (fun _ _ => 0) 0)
    (hpre0 : ∀ c : Dev nD, iprop(StableHlo.held (c : Thread nD τ) (Pipeline.ucRefs τ sig) (Gen.V0 m c) ∗ Rst c) ⊢ R0.pre c)
    (hpost0 : ∀ c : Dev nD, R0.post c ⊢ iprop(StableHlo.held (c : Thread nD τ) (Pipeline.ucRefs τ sig) (Gen.V1 m outs c) ∗ Rst c))
    (R1 : Pipeline.RegionSeg (pcfgs (F := F)) Gen.adm pdats () defs₀ Variants.none (fun _ => ∅) (fun _ _ => 0) 1)
    (hpre1 : ∀ c : Dev nD, iprop(StableHlo.held (c : Thread nD τ) (Pipeline.ucRefs τ sig) (Gen.V1 m outs c) ∗ Rst c) ⊢ R1.pre c)
    (hpost1 : ∀ c : Dev nD, R1.post c ⊢ iprop(StableHlo.held (c : Thread nD τ) (Pipeline.ucRefs τ sig) (Gen.V2 m outs c) ∗ Rst c)) :
    θ_run defs (onTc (τ := τ) (main (F := F))) ⟨m, fun _ => 0, ρ⟩ (fun r => ∀ c : Dev nD,
      r.2.mem ((c.tc : Thread nD τ).loc main_v3) = Gen.V3 m outs c main_v3
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m (emb₁ : Emb (UR sig nD τ) 𝕄) () Variants.none (fun _ => ∅) (fun _ _ => 0) (fun _ _ => rfl) ρ outs pdats
    (0 : Dev nD → CellTallies nD τ sig Unit) (fun _ => iprop(emp))
    (initOf (Pipeline.cells cfgs Gen.cellOf_inj) (Pipeline.launchToks cfgs Gen.cellOf_inj)) hu₀_emb
    (fun _ c => Rst c) (hE0_rst ρ) hE2_rst R0 hpre0 hpost0 R1 hpre1 hpost1

end Cert.Kernel.Fr

end
-- ==== Proof.KFrames.lean ====
import proofs.«174208_j39316130627934_1_alg».proof.Proof.KReg0
import proofs.«174208_j39316130627934_1_alg».proof.Proof.KReg1
import proofs.«174208_j39316130627934_1_alg».proof.Proof.KRunCond

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The two regions chained: the program runs, its arguments end unchanged, its result is read off the last host stretch -/

theorem enter0 (c : Dev nD) :
    (iprop(StableHlo.held (c : Thread nD τ) (Pipeline.ucRefs τ sig) (V0 m c) ∗ Rst c) : sProp 𝕄) ⊢ (reg0 m).pre c := .rfl
theorem leave0 (c : Dev nD) :
    (reg0 m).post c ⊢ (iprop(StableHlo.held (c : Thread nD τ) (Pipeline.ucRefs τ sig) (V1 m (outs m) c) ∗ Rst c) : sProp 𝕄) := by
  rw [V1_eq]; exact .rfl
theorem enter1 (c : Dev nD) :
    (iprop(StableHlo.held (c : Thread nD τ) (Pipeline.ucRefs τ sig) (V1 m (outs m) c) ∗ Rst c) : sProp 𝕄) ⊢ (reg1 m).pre c := by
  rw [V1_eq]; exact .rfl
theorem leave1 (c : Dev nD) :
    (reg1 m).post c ⊢ (iprop(StableHlo.held (c : Thread nD τ) (Pipeline.ucRefs τ sig) (V2 m (outs m) c) ∗ Rst c) : sProp 𝕄) := by
  rw [V2_eq]; exact .rfl

/-- Every weakly fair execution terminates, nothing faults, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_regions m ρ (outs m) (pdats m) (reg0 m) (enter0 m) (leave0 m) (reg1 m) (enter1 m) (leave1 m)

/-- The same run with the result named: the last host stretch applied to what the regions leave. -/
theorem run : θ_run defs (onTc (τ := τ) (main (F := F))) ⟨m, fun _ => 0, ρ⟩ (fun r => ∀ c : Dev nD,
      r.2.mem ((c.tc : Thread nD τ).loc main_v3) = V3 m (outs m) c main_v3
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_of_regions m ρ (outs m) (pdats m) (reg0 m) (enter0 m) (leave0 m) (reg1 m) (enter1 m) (leave1 m)

end Cert.Kernel.Fr
end
-- ==== Proof.LossSpec.lean ====
/-
  The quantity both programs compute, written once over the extended reals.

  For a matrix `x` of 8192 rows of length 128 and a square matrix `s` of side 8192:
  every row of `x` is divided by the larger of its Euclidean norm and the clamp `eps`;
  `pred a b` is the inner product of the normalised rows `a` and `b`; the squared error
  `(pred a b - s a b)²` is summed over all pairs `(a, b)`.  The sum is also written
  tile by tile: the pairs are cut into 8 × 8 square tiles of side 1024, the tile `(i, j)`
  holding the pairs `(1024 i + p, 1024 j + q)`.
-/
import Idealize.ShloMosaic.PureOps.Ideal.Laws

noncomputable section

namespace Cert.Loss

open Idealize.ShloMosaic

/-- The clamp on a row's norm: the f32 word nearest to 1e-8, as an extended real. -/
def eps : EReal := Ideal.ofBits .f32 0x322BCC77#32

/-- The sum of the squares of row `r`. -/
def ssq {R : Nat} (x : Fin R → Fin 128 → EReal) (r : Fin R) : EReal := ∑ k : Fin 128, x r k * x r k

/-- The clamped norm of row `r`. -/
def nrm {R : Nat} (x : Fin R → Fin 128 → EReal) (r : Fin R) : EReal := max (Ideal.sqrt (ssq x r)) eps

/-- The normalised rows. -/
def xn {R : Nat} (x : Fin R → Fin 128 → EReal) : Fin R → Fin 128 → EReal := fun r k => Ideal.div (x r k) (nrm x r)

/-- The squared error of the inner product of row `p` of `u` and row `q` of `w` against `z p q`. -/
def sqerr {A B : Nat} (u : Fin A → Fin 128 → EReal) (w : Fin B → Fin 128 → EReal) (z : Fin A → Fin B → EReal)
    (p : Fin A) (q : Fin B) : EReal :=
  ((∑ k : Fin 128, u p k * w q k) - z p q) * ((∑ k : Fin 128, u p k * w q k) - z p q)

/-- The squared errors summed over a whole block of pairs, rows first. -/
def blockErr {A B : Nat} (u : Fin A → Fin 128 → EReal) (w : Fin B → Fin 128 → EReal) (z : Fin A → Fin B → EReal) : EReal :=
  ∑ p : Fin A, ∑ q : Fin B, sqerr u w z p q

/-- The total squared error of the normalised rows `y` against `s`. -/
def total (y : Fin 8192 → Fin 128 → EReal) (s : Fin 8192 → Fin 8192 → EReal) : EReal := blockErr y y s

/-- Row `p` of the `i`-th band of 1024 rows. -/
def band (i : Fin 8) (p : Fin 1024) : Fin 8192 := ⟨1024 * i.val + p.val, by omega⟩

/-- The squared errors summed over the tile `(i, j)`. -/
def tile (y : Fin 8192 → Fin 128 → EReal) (s : Fin 8192 → Fin 8192 → EReal) (i j : Fin 8) : EReal :=
  blockErr (fun p k => y (band i p) k) (fun q k => y (band j q) k) (fun p q => s (band i p) (band j q))

/-- The tiles visited in row-major order, the first `n` of them summed. -/
def tilesUpTo (y : Fin 8192 → Fin 128 → EReal) (s : Fin 8192 → Fin 8192 → EReal) (n : Nat) : EReal :=
  ∑ t ∈ Finset.range n, tile y s ⟨t / 8 % 8, Nat.mod_lt _ (by decide)⟩ ⟨t % 8, Nat.mod_lt _ (by decide)⟩

end Cert.Loss

end
-- ==== Proof.PayloadValue.lean ====
/-
  The kernel's stored values, read on the extended reals.

  The first kernel stores, at row `r` and lane `k`, the entry `x r k` divided by the larger of the
  Euclidean norm of row `r` and the clamp.  The second kernel first stores a zero, and at every
  tile adds to the running value the squared errors of the tile's inner products against the
  tile of similarities, summed over the tile.
-/
import proofs.«174208_j39316130627934_1_alg».proof.Proof.Gen.KernelIdeal.Skeleton
import proofs.«174208_j39316130627934_1_alg».proof.Proof.LossSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx

variable {α : Type}

/-! ## A column: a vector cast to one, and one broadcast along the lanes -/

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums along one axis of a matrix -/

/-- The sum along the lanes of a matrix, read at row `r`: the sum of that row's entries. -/
theorem rowSum_apply {m n : ℕ} (src : FVec Ideal ⟨2, ![m, n]⟩ .f32) (h : (⟨2, ![m, n]⟩ : Shape).Reduces [1] ⟨1, ![m]⟩) (hφ : FKind.Formats .f32)
    (hacc : (0x00000000#32 : BitVec 32) = 0x00000000#32) (r : Fin m) :
    multiReduction (F := Ideal) .add [1] ⟨1, ![m]⟩ src 0x00000000#32 h hφ hacc (ix1 r) = ∑ k : Fin n, src (ix2 r k) := by
  refine (Ideal.multiReduction_add_single src 0x00000000#32 h hφ hacc (ix1 r)).trans ?_
  refine Finset.sum_congr rfl fun k _ => congrArg src ?_
  funext a
  match a with
  | ⟨0, _⟩ => rfl
  | ⟨1, _⟩ => rfl

/-- The sum along the rows of a matrix, read at column `c`: the sum of that column's entries. -/
theorem colSum_apply {m n : ℕ} (src : FVec Ideal ⟨2, ![m, n]⟩ .f32) (h : (⟨2, ![m, n]⟩ : Shape).Reduces [0] ⟨1, ![n]⟩) (hφ : FKind.Formats .f32)
    (hacc : (0x00000000#32 : BitVec 32) = 0x00000000#32) (c : Fin n) :
    multiReduction (F := Ideal) .add [0] ⟨1, ![n]⟩ src 0x00000000#32 h hφ hacc (ix1 c) = ∑ p : Fin m, src (ix2 p c) := by
  refine (Ideal.multiReduction_add_single src 0x00000000#32 h hφ hacc (ix1 c)).trans ?_
  refine Finset.sum_congr rfl fun p _ => congrArg src ?_
  funext a
  match a with
  | ⟨0, _⟩ => rfl
  | ⟨1, _⟩ => rfl

/-! ## The normalising kernel -/

/-- The value the normalising kernel stores at row `r`, lane `k`: the entry divided by the clamped norm of its row. -/
theorem pay_normalize (v0 : Vec Ideal S8192x128 .f32) (r : Fin 8192) (k : Fin 128) :
    k0_pay1 (F := Ideal) v0 (ix2 r k) = Cert.Loss.xn (fun a k => v0 (ix2 a k)) r k := by
  unfold k0_pay1
  rw [truncf_apply, divf_apply, broadcastTo_a1_ab_apply, maximumf_apply]
  show Ideal.div _ (max (Ideal.sqrt (shapeCast S8192x1 _ shapeCasts_S8192_S8192x1 (ix2 r 0))) (Ideal.ofBits .f32 0x322BCC77#32)) = _
  rw [shapeCast_a_a1_apply, rowSum_apply]
  rfl

/-! ## The loss kernel: the reset -/

/-- The value the loss kernel stores first: zero. -/
theorem pay_reset : k1_pay1 (F := Ideal) = fun _ => (0 : EReal) := by
  unfold k1_pay1
  dsimp only
  rw [shapeCast_self]
  funext i
  exact Ideal.ofBits_zero_f32

/-! ## The loss kernel: the product of a block with the transpose of another

Both operands are contracted along their lanes (axis 1); the result's row comes from the first operand's row,
its column from the second operand's row. -/

/-- The first operand is read at the result's row … -/
theorem lhsIdx_row (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
/-- … and at the contraction's coordinate as its lane. -/
theorem lhsIdx_lane (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
/-- The second operand is read at the result's column as its row … -/
theorem rhsIdx_row (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
/-- … and at the contraction's coordinate as its lane. -/
theorem rhsIdx_lane (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- The product of a `[1024, 128]` block with the transpose of another, into a zero accumulator, read at `(p, q)`:
    the inner product of row `p` of the first with row `q` of the second. -/
theorem matmul_entry (u w : FVec Ideal S1024x128 .bf16) (p q : Fin 1024) :
    matmul (F := Ideal) dot_S1024x128_S1024x128_S1024x1024_1_1_0_0_n_n none u w (constant (F := Ideal) S1024x1024 .f32 0x00000000#32) (ix2 p q)
      = ∑ k : Fin 128, u (ix2 p k) * w (ix2 q k) := by
  simp only [matmul]
  rw [Ideal.matmul_constant_zero_apply, ← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 p q) ((contrEquiv1 dot_S1024x128_S1024x128_S1024x1024_1_1_0_0_n_n 128 rfl rfl).symm k) = ix2 p k := funext fun a => Fin.ext (by
    match a with
    | ⟨0, _⟩ => exact lhsIdx_row _ _
    | ⟨1, _⟩ => exact (lhsIdx_lane _ _).trans hk)
  have er : dot_S1024x128_S1024x128_S1024x1024_1_1_0_0_n_n.rhsIdx (ix2 p q) ((contrEquiv1 dot_S1024x128_S1024x128_S1024x1024_1_1_0_0_n_n 128 rfl rfl).symm k) = ix2 q k := funext fun a => Fin.ext (by
    match a with
    | ⟨0, _⟩ => exact rhsIdx_row _ _
    | ⟨1, _⟩ => exact (rhsIdx_lane _ _).trans hk)
  rw [el, er]

/-! ## The loss kernel: one accumulation step -/

/-- The value the loss kernel stores at a tile: the running value it loaded plus the tile's squared errors,
    summed along the lanes and then along the rows. -/
theorem pay_accumulate (v5 v7 : Vec Ideal S1024x128 .bf16) (v10 : Vec Ideal S1024x1024 .f32) (v17 : Vec Ideal S1x1 .f32) :
    k1_pay2 (F := Ideal) v5 v7 v10 v17 = fun _ => v17 (ix2 0 0) + Cert.Loss.blockErr (fun p k => v5 (ix2 p k)) (fun q k => v7 (ix2 q k)) (fun p q => v10 (ix2 p q)) := by
  unfold k1_pay2
  dsimp only
  rw [shapeCast_self, shapeCast_self, shapeCast_self]
  funext j
  obtain ⟨a, b, rfl⟩ : ∃ (a b : Fin 1), j = ix2 a b := ⟨j 0, j 1, eq_ix2 j⟩
  obtain rfl : a = 0 := Subsingleton.elim _ _
  obtain rfl : b = 0 := Subsingleton.elim _ _
  rw [addf_apply, shapeCast_a_a1_apply, colSum_apply]
  refine congrArg (v17 (ix2 0 0) + ·) ?_
  unfold Cert.Loss.blockErr
  refine Finset.sum_congr rfl fun p _ => ?_
  rw [shapeCast_a_a1_apply, rowSum_apply]
  refine Finset.sum_congr rfl fun q _ => ?_
  rw [mulf_apply, subf_apply, matmul_entry]
  rfl

end Cert.KernelIdeal.PayValue

end
-- ==== Proof.LibSumDigits.lean ====
/-
  Re-indexing a finite sum by mixed-radix digits, in any additive commutative monoid.

  Every `r < m * n` is `a * n + b` for exactly one pair of digits `a < m`, `b < n`, so a sum over
  `Fin (m * n)` is the double sum over the two digits (`sum_fin_mul`).  Applying this three times, a
  sum over `Fin (n₁ * n₂ * n₃ * n₄)` is the fourfold sum over the digits of
  `r = ((a * n₂ + b) * n₃ + c) * n₄ + d` (`sum_fin_mul4`).  Last, four nested sums may be reordered
  by moving the outer pair of summation variables inside the inner pair (`sum_comm4`).
-/
import Mathlib.Algebra.BigOperators.Fin
import Mathlib.Logic.Equiv.Fin.Basic
import Mathlib.Tactic.Ring

open scoped BigOperators

namespace Cert.SumDigits

variable {M : Type*} [AddCommMonoid M]

/-- A two-digit numeral with digits `a < m` and `b < n` is below `m * n`. -/
theorem digits_lt {m n : ℕ} (a : Fin m) (b : Fin n) : a.val * n + b.val < m * n :=
  calc a.val * n + b.val < a.val * n + n := Nat.add_lt_add_left b.isLt _
    _ = (a.val + 1) * n := by ring
    _ ≤ m * n := Nat.mul_le_mul_right n a.isLt

/-- A sum over `Fin N` with `N = m * n` is the double sum over the digits `a < m`, `b < n` of
    `r = a * n + b`. -/
theorem sum_fin_mul {m n N : ℕ} (hN : m * n = N) (f : Fin N → M) :
    ∑ r : Fin N, f r = ∑ a : Fin m, ∑ b : Fin n, f ⟨a.val * n + b.val, hN ▸ digits_lt a b⟩ := by
  subst hN
  rw [← Equiv.sum_comp finProdFinEquiv f, Fintype.sum_prod_type]
  refine Finset.sum_congr rfl fun a _ => Finset.sum_congr rfl fun b _ => ?_
  congr 1
  ext
  simp only [finProdFinEquiv_apply_val]
  ring

/-- A four-digit numeral with digits `a < n₁`, `b < n₂`, `c < n₃`, `d < n₄` is below
    `n₁ * n₂ * n₃ * n₄`. -/
theorem digits4_lt {n₁ n₂ n₃ n₄ : ℕ} (a : Fin n₁) (b : Fin n₂) (c : Fin n₃) (d : Fin n₄) :
    ((a.val * n₂ + b.val) * n₃ + c.val) * n₄ + d.val < n₁ * n₂ * n₃ * n₄ :=
  digits_lt (⟨_, digits_lt (⟨_, digits_lt a b⟩ : Fin (n₁ * n₂)) c⟩ : Fin (n₁ * n₂ * n₃)) d

/-- A sum over `Fin N` with `N = n₁ * n₂ * n₃ * n₄` is the fourfold sum over the digits of
    `r = ((a * n₂ + b) * n₃ + c) * n₄ + d`. -/
theorem sum_fin_mul4 {n₁ n₂ n₃ n₄ N : ℕ} (hN : n₁ * n₂ * n₃ * n₄ = N) (f : Fin N → M) :
    ∑ r : Fin N, f r = ∑ a : Fin n₁, ∑ b : Fin n₂, ∑ c : Fin n₃, ∑ d : Fin n₄,
      f ⟨((a.val * n₂ + b.val) * n₃ + c.val) * n₄ + d.val, hN ▸ digits4_lt a b c d⟩ := by
  subst hN
  rw [sum_fin_mul (m := n₁ * n₂ * n₃) (n := n₄) rfl f,
    sum_fin_mul (m := n₁ * n₂) (n := n₃) rfl
      (fun p : Fin (n₁ * n₂ * n₃) => ∑ d : Fin n₄, f ⟨p.val * n₄ + d.val, digits_lt p d⟩),
    sum_fin_mul (m := n₁) (n := n₂) rfl
      (fun q : Fin (n₁ * n₂) => ∑ c : Fin n₃, ∑ d : Fin n₄,
        f ⟨(q.val * n₃ + c.val) * n₄ + d.val,
          digits_lt (⟨_, digits_lt q c⟩ : Fin (n₁ * n₂ * n₃)) d⟩)]

/-- Four nested finite sums: the outer two summation variables may be moved inside the inner two. -/
theorem sum_comm4 {α β γ δ : Type*} [Fintype α] [Fintype β] [Fintype γ] [Fintype δ]
    (g : α → β → γ → δ → M) :
    ∑ a, ∑ b, ∑ c, ∑ d, g a b c d = ∑ c, ∑ d, ∑ a, ∑ b, g a b c d :=
  calc ∑ a, ∑ b, ∑ c, ∑ d, g a b c d
      = ∑ a, ∑ c, ∑ b, ∑ d, g a b c d := Finset.sum_congr rfl fun _ _ => Finset.sum_comm
    _ = ∑ c, ∑ a, ∑ b, ∑ d, g a b c d := Finset.sum_comm
    _ = ∑ c, ∑ a, ∑ d, ∑ b, g a b c d :=
        Finset.sum_congr rfl fun _ _ => Finset.sum_congr rfl fun _ _ => Finset.sum_comm
    _ = ∑ c, ∑ d, ∑ a, ∑ b, g a b c d := Finset.sum_congr rfl fun _ _ => Finset.sum_comm

end Cert.SumDigits
-- ==== Proof.TileSum.lean ====
/-
  The total squared error regrouped tile by tile.

  A row index `r < 8192` is `1024 i + p` for exactly one band `i < 8` and one offset `p < 1024`, so a sum
  over the 8192 rows is the sum over the 8 bands of the sum over each band's 1024 rows.  Applied to both
  summation variables of the total, and with the inner band variable moved outside the outer offset
  variable (addition is commutative and associative), the total is the sum over the 8 × 8 tiles of each
  tile's own double sum.  Last, the 64 tiles are enumerated in row-major order by `t = 8 i + j`, whose
  digits are `i = t / 8` and `j = t % 8`.  Nothing but the laws of a commutative monoid is used, so
  the statement holds for every input, finite or not.
-/
import proofs.«174208_j39316130627934_1_alg».proof.Proof.LossSpec
import proofs.«174208_j39316130627934_1_alg».proof.Proof.LibSumDigits

open scoped BigOperators

noncomputable section

namespace Cert.Loss

open Cert.SumDigits

/-- A sum over the 8192 rows is the sum over the 8 bands of the sum over each band's 1024 rows. -/
theorem sum_rows_eq_bands {M : Type*} [AddCommMonoid M] (f : Fin 8192 → M) :
    ∑ r : Fin 8192, f r = ∑ i : Fin 8, ∑ p : Fin 1024, f (band i p) := by
  rw [sum_fin_mul (m := 8) (n := 1024) (N := 8192) rfl f]
  refine Finset.sum_congr rfl fun i _ => Finset.sum_congr rfl fun p _ => ?_
  exact congrArg f (Fin.ext (by show i.val * 1024 + p.val = 1024 * i.val + p.val; omega))

/-- The total is the sum of the 8 × 8 tiles. -/
theorem total_eq_sum_tiles (y : Fin 8192 → Fin 128 → EReal) (s : Fin 8192 → Fin 8192 → EReal) :
    total y s = ∑ i : Fin 8, ∑ j : Fin 8, tile y s i j := by
  unfold total blockErr
  rw [sum_rows_eq_bands]
  refine Finset.sum_congr rfl fun i _ => ?_
  have h : ∀ p : Fin 1024, ∑ b : Fin 8192, sqerr y y s (band i p) b
      = ∑ j : Fin 8, ∑ q : Fin 1024, sqerr y y s (band i p) (band j q) := fun p => sum_rows_eq_bands _
  rw [Finset.sum_congr rfl fun p _ => h p, Finset.sum_comm]
  refine Finset.sum_congr rfl fun j _ => ?_
  rfl

/-- The 64 tiles in row-major order: tile number `t` is the tile `(t / 8, t % 8)`. -/
theorem total_eq_tiles (y : Fin 8192 → Fin 128 → EReal) (s : Fin 8192 → Fin 8192 → EReal) :
    total y s = tilesUpTo y s 64 := by
  rw [total_eq_sum_tiles]
  unfold tilesUpTo
  rw [Finset.sum_range, sum_fin_mul (m := 8) (n := 8) (N := 64) rfl]
  refine Finset.sum_congr rfl fun i _ => Finset.sum_congr rfl fun j _ => ?_
  refine congrArg₂ (tile y s) (Fin.ext ?_) (Fin.ext ?_)
  · show i.val = (i.val * 8 + j.val) / 8 % 8
    omega
  · show j.val = (i.val * 8 + j.val) % 8
    omega

end Cert.Loss

end
-- ==== Proof.ReshapeScalar.lean ====
/-
  A `[1, 1]` array read as a scalar.

  A shape cast keeps the row-major position of every element.  A `[1, 1]` array and a scalar both have exactly one
  position, so the scalar's one element is the array's element `(0, 0)`.
-/
import proofs.«174208_j39316130627934_1_alg».proof.Proof.Gen.KernelIdeal
import Idealize.ShloMosaic.Lib.Pipeline.Value
import Idealize.ShloMosaic.Lib.ValueIdx
import Idealize.ShloMosaic.PureOps.Ideal

noncomputable section

namespace Cert.KernelIdeal.Fr

open Idealize.ShloMosaic

/-- A `[1, 1]` array of any element type, cast to the scalar shape, is the constant function at its one element. -/
theorem shapeCast_11_scalar {α : Type} (X : (⟨2, ![1, 1]⟩ : Shape).Idx → α)
    (h : (⟨2, ![1, 1]⟩ : Shape).ShapeCasts ⟨0, ![]⟩) :
    shapeCast ⟨0, ![]⟩ X h = fun _ => X (ValueIdx.ix2 0 0) :=
  funext fun j => shapeCast_apply X h j (ValueIdx.ix2 0 0) (by
    have h1 := ((⟨2, ![1, 1]⟩ : Shape).rowMajor (ValueIdx.ix2 (0 : Fin 1) (0 : Fin 1))).isLt
    have h2 := ((⟨0, ![]⟩ : Shape).rowMajor j).isLt
    have e1 : (⟨2, ![1, 1]⟩ : Shape).numel = 1 := by decide
    have e2 : (⟨0, ![]⟩ : Shape).numel = 1 := by decide
    omega)

/-- The output of the second region, a `[1, 1]` array of extended reals, read as a scalar. -/
theorem reshape_scalar (X : Vec Ideal S1x1 .f32) :
    shapeCast S_ X Facts₀.shapeCasts_S1x1_S_ = fun _ => X (ValueIdx.ix2 0 0) :=
  shapeCast_11_scalar X Facts₀.shapeCasts_S1x1_S_

end Cert.KernelIdeal.Fr

end
-- ==== Proof.AccValue.lean ====
/-
  What the second kernel's accumulator holds on the extended reals.

  The grid is 8 × 8 in row-major order: the point at position `t` is the tile `(t / 8, t % 8)`.  There the
  first window holds band `t / 8` of the normalised rows, the second band `t % 8`, the third the tile of the
  similarity matrix.  The body adds the tile's squared errors to the accumulator (zero at the first point), so
  after position `n` the accumulator holds the sum of the first `n + 1` tiles; after the last, the total.
-/
import proofs.«174208_j39316130627934_1_alg».proof.Proof.Frame1
import proofs.«174208_j39316130627934_1_alg».proof.Proof.PayloadValue
import proofs.«174208_j39316130627934_1_alg».proof.Proof.TileSum
import proofs.«174208_j39316130627934_1_alg».proof.Proof.LossSpec

set_option maxRecDepth 16384

noncomputable section

namespace Cert.KernelIdeal.Fr

open Cert.KernelIdeal Cert.KernelIdeal.Gen Cert.KernelIdeal.PayValue
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The windows' blocks, read off their arrays -/

/-- The index maps over the grid: the first window follows the tile's row, the second its column, the third both. -/
theorem idx_facts1 : ∀ t : Fin cfg1.N, win1_0.index t (0 : Fin 2) = t.val / 8 % 8 ∧ win1_0.index t (1 : Fin 2) = 0
    ∧ win1_1.index t (0 : Fin 2) = t.val % 8 ∧ win1_1.index t (1 : Fin 2) = 0
    ∧ win1_2.index t (0 : Fin 2) = t.val / 8 % 8 ∧ win1_2.index t (1 : Fin 2) = t.val % 8 :=
  (by decide +kernel : ∀ t : Fin grid1.N, _)

/-- The first window's block at position `t` is band `t / 8` of the normalised rows. -/
theorem iblk1_rows (c : Dev nD) (t : Fin cfg1.N) (p : Fin 1024) (k : Fin 128) :
    iblk1 V c 0 t (ix2 p k) = V c main_v0 (ix2 (Cert.Loss.band ⟨t.val / 8 % 8, Nat.mod_lt _ (by decide)⟩ p) k) := by
  obtain ⟨e0, e1, -⟩ := idx_facts1 t
  show V c main_v0 (((cfg1.win 0).blk t).view.emb (ix2 p k)) = _
  refine congrArg (V c main_v0) ?_
  funext a; apply Fin.ext
  match a with
  | ⟨0, _⟩ => show win1_0.index t (0 : Fin 2) * 1024 + 1 * p.val = 1024 * (t.val / 8 % 8) + p.val; omega
  | ⟨1, _⟩ => show win1_0.index t (1 : Fin 2) * 128 + 1 * k.val = k.val; omega

/-- The second window's block at position `t` is band `t % 8` of the normalised rows. -/
theorem iblk1_cols (c : Dev nD) (t : Fin cfg1.N) (q : Fin 1024) (k : Fin 128) :
    iblk1 V c 1 t (ix2 q k) = V c main_v0 (ix2 (Cert.Loss.band ⟨t.val % 8, Nat.mod_lt _ (by decide)⟩ q) k) := by
  obtain ⟨-, -, e2, e3, -⟩ := idx_facts1 t
  show V c main_v0 (((cfg1.win 1).blk t).view.emb (ix2 q k)) = _
  refine congrArg (V c main_v0) ?_
  funext a; apply Fin.ext
  match a with
  | ⟨0, _⟩ => show win1_1.index t (0 : Fin 2) * 1024 + 1 * q.val = 1024 * (t.val % 8) + q.val; omega
  | ⟨1, _⟩ => show win1_1.index t (1 : Fin 2) * 128 + 1 * k.val = k.val; omega

/-- The third window's block at position `t` is the tile `(t / 8, t % 8)` of the similarity matrix. -/
theorem iblk1_tile (c : Dev nD) (t : Fin cfg1.N) (p q : Fin 1024) :
    iblk1 V c 2 t (ix2 p q) = V c main_arg1 (ix2 (Cert.Loss.band ⟨t.val / 8 % 8, Nat.mod_lt _ (by decide)⟩ p)
      (Cert.Loss.band ⟨t.val % 8, Nat.mod_lt _ (by decide)⟩ q)) := by
  obtain ⟨-, -, -, -, e4, e5⟩ := idx_facts1 t
  show V c main_arg1 (((cfg1.win 2).blk t).view.emb (ix2 p q)) = _
  refine congrArg (V c main_arg1) ?_
  funext a; apply Fin.ext
  match a with
  | ⟨0, _⟩ => show win1_2.index t (0 : Fin 2) * 1024 + 1 * p.val = 1024 * (t.val / 8 % 8) + p.val; omega
  | ⟨1, _⟩ => show win1_2.index t (1 : Fin 2) * 1024 + 1 * q.val = 1024 * (t.val % 8) + q.val; omega

/-- So the squared errors of the three blocks at position `t`, summed, are the tile `(t / 8, t % 8)`. -/
theorem blockErr_blocks (c : Dev nD) (t : Fin cfg1.N) :
    Cert.Loss.blockErr (fun p k => iblk1 V c 0 t (ix2 p k)) (fun q k => iblk1 V c 1 t (ix2 q k)) (fun p q => iblk1 V c 2 t (ix2 p q))
      = Cert.Loss.tile (fun a k => V c main_v0 (ix2 a k)) (fun a b => V c main_arg1 (ix2 a b))
          ⟨t.val / 8 % 8, Nat.mod_lt _ (by decide)⟩ ⟨t.val % 8, Nat.mod_lt _ (by decide)⟩ := by
  have h0 : (fun (p : Fin 1024) (k : Fin 128) => iblk1 V c 0 t (ix2 p k))
      = fun p k => V c main_v0 (ix2 (Cert.Loss.band ⟨t.val / 8 % 8, Nat.mod_lt _ (by decide)⟩ p) k) :=
    funext fun p => funext fun k => iblk1_rows V c t p k
  have h1 : (fun (q : Fin 1024) (k : Fin 128) => iblk1 V c 1 t (ix2 q k))
      = fun q k => V c main_v0 (ix2 (Cert.Loss.band ⟨t.val % 8, Nat.mod_lt _ (by decide)⟩ q) k) :=
    funext fun q => funext fun k => iblk1_cols V c t q k
  have h2 : (fun (p q : Fin 1024) => iblk1 V c 2 t (ix2 p q))
      = fun p q => V c main_arg1 (ix2 (Cert.Loss.band ⟨t.val / 8 % 8, Nat.mod_lt _ (by decide)⟩ p)
          (Cert.Loss.band ⟨t.val % 8, Nat.mod_lt _ (by decide)⟩ q)) :=
    funext fun p => funext fun q => iblk1_tile V c t p q
  rw [h0, h1, h2]
  rfl

/-! ## The accumulator -/

/-- One more tile. -/
theorem tilesUpTo_succ (y : Fin 8192 → Fin 128 → EReal) (s : Fin 8192 → Fin 8192 → EReal) (n : ℕ) :
    Cert.Loss.tilesUpTo y s (n + 1)
      = Cert.Loss.tilesUpTo y s n + Cert.Loss.tile y s ⟨n / 8 % 8, Nat.mod_lt _ (by decide)⟩ ⟨n % 8, Nat.mod_lt _ (by decide)⟩ :=
  Finset.sum_range_succ _ n

/-- No tile. -/
theorem tilesUpTo_zero (y : Fin 8192 → Fin 128 → EReal) (s : Fin 8192 → Fin 8192 → EReal) :
    Cert.Loss.tilesUpTo y s 0 = 0 :=
  Finset.sum_range_zero _

/-- After the body at position `n` the accumulator holds the sum of the first `n + 1` tiles. -/
theorem accAt_value (c : Dev nD) : ∀ (n : ℕ) (hn : n < cfg1.N),
    accAt (F := Ideal) V c n hn
      = fun _ => Cert.Loss.tilesUpTo (fun a k => V c main_v0 (ix2 a k)) (fun a b => V c main_arg1 (ix2 a b)) (n + 1)
  | 0, hn => by
    show k1_pay2 (F := Ideal) (iblk1 V c 0 ⟨0, hn⟩) (iblk1 V c 1 ⟨0, hn⟩) (iblk1 V c 2 ⟨0, hn⟩) (k1_pay1 (F := Ideal)) = _
    rw [pay_accumulate, pay_reset, blockErr_blocks, tilesUpTo_succ, tilesUpTo_zero]
  | n + 1, hn => by
    show k1_pay2 (F := Ideal) (iblk1 V c 0 ⟨n + 1, hn⟩) (iblk1 V c 1 ⟨n + 1, hn⟩) (iblk1 V c 2 ⟨n + 1, hn⟩)
      (accAt (F := Ideal) V c n (Nat.lt_of_succ_lt hn)) = _
    rw [pay_accumulate, accAt_value c n (Nat.lt_of_succ_lt hn), blockErr_blocks, tilesUpTo_succ _ _ (n + 1)]

/-- After the last point the accumulator holds the total squared error of the normalised rows against the
    similarity matrix. -/
theorem accAt_total (c : Dev nD) (hn : 63 < cfg1.N) :
    accAt (F := Ideal) V c 63 hn
      = fun _ => Cert.Loss.total (fun a k => V c main_v0 (ix2 a k)) (fun a b => V c main_arg1 (ix2 a b)) := by
  rw [accAt_value V c 63 hn, Cert.Loss.total_eq_tiles]

end Cert.KernelIdeal.Fr

end
-- ==== Proof.KernelValue.lean ====
/-
  What the two-region program leaves in its result, over the extended reals.

  The first region leaves in its output the normalised rows of the first argument; the second region, entered
  from that, leaves in its `[1, 1]` output the sum of the 64 tiles' squared errors, which is the total squared
  error of the normalised rows against the second argument; the host operations read that array as a scalar and
  divide it by the constant 2^26.
-/
import proofs.«174208_j39316130627934_1_alg».proof.Proof.Entry
import proofs.«174208_j39316130627934_1_alg».proof.Proof.Arr1
import proofs.«174208_j39316130627934_1_alg».proof.Proof.PayloadValue
import proofs.«174208_j39316130627934_1_alg».proof.Proof.TileSum
import proofs.«174208_j39316130627934_1_alg».proof.Proof.RunCond
import proofs.«174208_j39316130627934_1_alg».proof.Proof.ReshapeScalar
import proofs.«174208_j39316130627934_1_alg».proof.Proof.AccValue

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The second region finds in `main_v0` the normalising kernel's value of the first argument. -/
theorem ve1_v0 (c : Dev nD) : Ve1 m c main_v0 = k0_pay1 (F := Ideal) (m ((c.tc : Thread nD τ).loc main_arg0)) := by
  show Function.update (V0 m c) main_v0 (out0 m c) (Proc.devRef .tc main_v0) = _
  rw [Function.update_self]
  unfold out0
  rw [arr0_out]

/-- The second region finds the second argument as launched. -/
theorem ve1_arg1 (c : Dev nD) : Ve1 m c main_arg1 = m ((c.tc : Thread nD τ).loc main_arg1) := by
  show Function.update (V0 m c) main_v0 (out0 m c) (Proc.devRef .tc main_arg1) = _
  rw [Function.update_of_ne (StableHlo.devRef_ne_of_ne (by decide) : (Proc.devRef .tc main_arg1 : DevRef τ sig) ≠ Proc.devRef .tc main_v0)]

/-- What the second region leaves in its output: at its one position, the total squared error of the normalised
    rows of the first argument against the second. -/
theorem out1_value (c : Dev nD) :
    out1 m c = fun _ => Cert.Loss.total (Cert.Loss.xn (fun a k => m ((c.tc : Thread nD τ).loc main_arg0) (ix2 a k)))
      (fun a b => m ((c.tc : Thread nD τ).loc main_arg1) (ix2 a b)) := by
  have hY : (fun (a : Fin 8192) (k : Fin 128) => Ve1 m c main_v0 (ix2 a k))
      = Cert.Loss.xn (fun a k => m ((c.tc : Thread nD τ).loc main_arg0) (ix2 a k)) :=
    funext fun a => funext fun k => by rw [ve1_v0]; exact PayValue.pay_normalize _ a k
  have hS : (fun (a b : Fin 8192) => Ve1 m c main_arg1 (ix2 a b))
      = fun a b => m ((c.tc : Thread nD τ).loc main_arg1) (ix2 a b) := by rw [ve1_arg1]
  unfold out1
  refine (arr1_out (Ve1 m) c).trans ((accAt_value (Ve1 m) c 63 lastLt).trans (funext fun _ => ?_))
  rw [hY, hS]
  exact (Cert.Loss.total_eq_tiles _ _).symm

/-- The result: the total squared error divided by the constant. -/
theorem kernel_value (c : Dev nD) :
    Gen.V3 m (outs m) c main_v3
      = Host.divf (F := Ideal)
          (fun _ => Cert.Loss.total (Cert.Loss.xn (fun a k => m ((c.tc : Thread nD τ).loc main_arg0) (ix2 a k)))
            (fun a b => m ((c.tc : Thread nD τ).loc main_arg1) (ix2 a b)))
          (constant (F := Ideal) S_ .f32 0x4C800000#32) := by
  rw [V3_main_v3, outs_v1, reshape_scalar, out1_value]

end Cert.KernelIdeal.Fr

end
-- ==== Proof.RefValue.lean ====
/-
  The reference's result, read index by index: the total squared error of the normalised rows divided by 2^26.

  Each stage of the reference is read at an index built from its coordinates.  Row `a` of the input has the
  sum of squares `ssq a` (the sum starts from the zero word, which is the extended real 0), the clamped norm
  `nrm a = max (sqrt (ssq a)) eps`, and the normalised entries `xn a k = x a k / nrm a`.  The matrix product
  of the normalised rows with their transpose has the entry `∑ k, xn a k * xn b k` at `(a, b)`; subtracting
  the second input and squaring gives the squared error at `(a, b)`, and the whole sum over all index pairs,
  again started from 0, is the double sum over rows and columns, i.e. the total.
-/
import proofs.«174208_j39316130627934_1_alg».proof.Proof.Gen.ReferenceIdeal.Read
import proofs.«174208_j39316130627934_1_alg».proof.Proof.LossSpec

open scoped BigOperators

noncomputable section

namespace Cert.RefValue

open Cert.ReferenceIdeal Idealize.ShloMosaic Idealize.ShloMosaic.ValueIdx

/-- The sum of the squares of row `a`, as the reference's row reduction computes it. -/
theorem ref_ssq (x0 : (⟨S8192x128, .f32⟩ : BufTy).Contents (Elt Ideal)) (a : Fin 8192) :
    Read.val_main_call0_v1 (F := Ideal) x0 (ix1 a) = Cert.Loss.ssq (fun a k => x0 (ix2 a k)) a := by
  rw [Read.val_main_call0_v1_apply, Read.val_main_call0_cst_apply, Ideal.ofBits_def, Ideal.ofBits_zero_f32, zero_add]
  unfold Cert.Loss.ssq
  refine Finset.sum_congr rfl fun k _ => ?_
  have e : Read.idx_main_call0_v1 (ix1 a) k = ix2 a k :=
    funext fun d => Fin.ext (by match d with | ⟨0, _⟩ => rfl | ⟨1, _⟩ => rfl)
  rw [Read.val_main_call0_v0_apply, e, Ideal.mulf_def]

/-- The clamped norm of row `a`, read at the position the broadcast along the row takes it from. -/
theorem ref_nrm (x0 : (⟨S8192x128, .f32⟩ : BufTy).Contents (Elt Ideal)) (a : Fin 8192) (k : Fin 128) :
    Read.val_main_v2 (F := Ideal) x0 (Read.idx_main_v3 (ix2 a k)) = Cert.Loss.nrm (fun a k => x0 (ix2 a k)) a := by
  have e : Read.idx_main_call0_v2 (Read.idx_main_v3 (ix2 a k)) = ix1 a :=
    funext fun d => Fin.ext (by match d with | ⟨0, _⟩ => rfl)
  rw [Read.val_main_v2_apply, Read.val_main_v0_apply, Read.val_main_call0_v2_apply, Read.val_main_v1_apply,
    Read.val_main_cst_apply, e, ref_ssq, Ideal.maximumf_def, Ideal.hostUnary_sqrt_def, Ideal.ofBits_def]
  rfl

/-- The normalised entry `(a, k)`. -/
theorem ref_xn (x0 : (⟨S8192x128, .f32⟩ : BufTy).Contents (Elt Ideal)) (a : Fin 8192) (k : Fin 128) :
    Read.val_main_v4 (F := Ideal) x0 (ix2 a k) = Cert.Loss.xn (fun a k => x0 (ix2 a k)) a k := by
  rw [Read.val_main_v4_apply, Read.val_main_v3_apply, ref_nrm, Ideal.hostDivf_def]
  rfl

/-- The inner product of the normalised rows `a` and `b`. -/
theorem ref_pred (x0 : (⟨S8192x128, .f32⟩ : BufTy).Contents (Elt Ideal)) (a b : Fin 8192) :
    Read.val_main_v6 (F := Ideal) x0 (ix2 a b)
      = ∑ k : Fin 128, Cert.Loss.xn (fun a k => x0 (ix2 a k)) a k * Cert.Loss.xn (fun a k => x0 (ix2 a k)) b k := by
  rw [Read.val_main_v6_apply]
  refine Finset.sum_congr rfl fun k _ => ?_
  have el : Read.lidx_main_v6 (ix2 a b) k = ix2 a k :=
    funext fun d => Fin.ext (by match d with | ⟨0, _⟩ => rfl | ⟨1, _⟩ => rfl)
  have er : Read.idx_main_v5 (Read.ridx_main_v6 (ix2 a b) k) = ix2 b k :=
    funext fun d => Fin.ext (by match d with | ⟨0, _⟩ => rfl | ⟨1, _⟩ => rfl)
  rw [Read.val_main_v5_apply, el, er, ref_xn, ref_xn]

/-- The squared error at the pair `(a, b)`. -/
theorem ref_sqerr (x0 : (⟨S8192x128, .f32⟩ : BufTy).Contents (Elt Ideal))
    (x1 : (⟨S8192x8192, .f32⟩ : BufTy).Contents (Elt Ideal)) (a b : Fin 8192) :
    Read.val_main_v8 (F := Ideal) x0 x1 (ix2 a b)
      = Cert.Loss.sqerr (Cert.Loss.xn (fun a k => x0 (ix2 a k))) (Cert.Loss.xn (fun a k => x0 (ix2 a k)))
          (fun a b => x1 (ix2 a b)) a b := by
  rw [Read.val_main_v8_apply, Read.val_main_v7_apply, ref_pred, Ideal.mulf_def, Ideal.subf_def]
  rfl

/-- The reference's whole sum is the total squared error of the normalised rows. -/
theorem ref_v9 (x0 : (⟨S8192x128, .f32⟩ : BufTy).Contents (Elt Ideal))
    (x1 : (⟨S8192x8192, .f32⟩ : BufTy).Contents (Elt Ideal)) (i : S_.Idx) :
    Read.val_main_v9 (F := Ideal) x0 x1 i
      = Cert.Loss.total (Cert.Loss.xn (fun a k => x0 (ix2 a k))) (fun a b => x1 (ix2 a b)) := by
  rw [Read.val_main_v9_apply, Read.val_main_cst_0_apply, Ideal.ofBits_def, Ideal.ofBits_zero_f32, zero_add, sum_idx2]
  unfold Cert.Loss.total Cert.Loss.blockErr
  exact Finset.sum_congr rfl fun a _ => Finset.sum_congr rfl fun b _ => ref_sqerr x0 x1 a b

/-- The reference's result: the total divided by the constant 2^26. -/
theorem ref_v10 (x0 : (⟨S8192x128, .f32⟩ : BufTy).Contents (Elt Ideal))
    (x1 : (⟨S8192x8192, .f32⟩ : BufTy).Contents (Elt Ideal)) :
    Read.val_main_v10 (F := Ideal) x0 x1
      = Host.divf (F := Ideal)
          (fun _ => Cert.Loss.total (Cert.Loss.xn (fun a k => x0 (ix2 a k))) (fun a b => x1 (ix2 a b)))
          (constant (F := Ideal) S_ .f32 0x4C800000#32) := by
  unfold Read.val_main_v10 Read.val_main_cst_1
  exact congrArg (fun v => Host.divf (F := Ideal) v (constant (F := Ideal) S_ .f32 0x4C800000#32))
    (funext fun i => ref_v9 x0 x1 i)

end Cert.RefValue

end
-- ==== Proof.Assemble.lean ====
/-
  The two programs compute one value.

  Over the extended reals the two-region program ends with its result at the total squared error of the normalised
  rows divided by 2^26, and so does the reference; from memories that agree on the two arguments the two results
  are therefore the same function of the arguments.  Nothing about the inputs is used: both sides are the same
  sum, regrouped by the laws of a commutative monoid only.
-/
import proofs.«174208_j39316130627934_1_alg».proof.Defs
import proofs.«174208_j39316130627934_1_alg».proof.Proof.KernelValue
import proofs.«174208_j39316130627934_1_alg».proof.Proof.RefValue
import proofs.«174208_j39316130627934_1_alg».proof.Proof.Gen.ReferenceIdeal
import proofs.«174208_j39316130627934_1_alg».proof.Proof.Gen.ReferenceIdeal.Run
import proofs.«174208_j39316130627934_1_alg».proof.Proof.Gen.ReferenceIdeal.Read
import proofs.«174208_j39316130627934_1_alg».proof.Proof.Gen.Pre_finite_inputs

noncomputable section

namespace Cert.Assemble

open Idealize.ShloMosaic Idealize.ShloMosaic.TcCoe Idealize.SL.Sem Idealize.ShloMosaic.ValueIdx

/-- The reference runs and leaves its arguments unchanged. -/
theorem frame_ref : Cert.frame_ReferenceIdeal := fun m ρ _ =>
  (θ_run Cert.ReferenceIdeal.defs _ _).mono (fun _ h c => (h c).2) (Cert.ReferenceIdeal.Value.run (F := Ideal) m ρ)

/-- The common value of the two results, as a function of the first program's launch memory: the total squared
    error of the normalised rows of the first argument against the second, divided by 2^26. -/
def common (m : (ℓ : Loc Cert.KernelIdeal.nD Cert.KernelIdeal.τ Cert.KernelIdeal.sig) → Buf (Elt Ideal) ℓ)
    (c : Dev Cert.KernelIdeal.nD) : (⟨Cert.KernelIdeal.S_, .f32⟩ : BufTy).Contents (Elt Ideal) :=
  Host.divf (F := Ideal)
    (fun _ => Cert.Loss.total
      (Cert.Loss.xn (fun a k => m ((c.tc : Thread Cert.KernelIdeal.nD Cert.KernelIdeal.τ).loc Cert.KernelIdeal.main_arg0) (ix2 a k)))
      (fun a b => m ((c.tc : Thread Cert.KernelIdeal.nD Cert.KernelIdeal.τ).loc Cert.KernelIdeal.main_arg1) (ix2 a b)))
    (constant (F := Ideal) Cert.KernelIdeal.S_ .f32 0x4C800000#32)

/-- Given that the two-region program runs to its last valuation's result with its arguments unchanged, the two
    programs, from memories agreeing on the arguments, both run, end with equal results and unchanged arguments. -/
theorem algebraic_of_run
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v3)
              = Cert.KernelIdeal.Gen.V3 m (Cert.KernelIdeal.Fr.outs m) c Cert.KernelIdeal.main_v3
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))) :
    Cert.algebraic_KernelIdeal_ReferenceIdeal := by
  intro m ρ m' ρ' _ hagree
  refine ⟨common m, ?_, ?_⟩
  · exact (θ_run Cert.KernelIdeal.defs _ _).mono
      (fun r h c => ⟨(h c).1.trans (Cert.KernelIdeal.Fr.kernel_value m c), (h c).2.1, (h c).2.2⟩) (hrun m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v10_eq, Cert.RefValue.ref_v10, (hagree c).1, (hagree c).2]
    rfl

end Cert.Assemble

end
-- ==== Proof.lean ====
/-
  The certificate's five claims, assembled.

  The kernel normalises each row of the embeddings by the larger of its Euclidean norm and a clamp, and sums the squared
  differences between the inner products of the normalised rows and the similarity matrix tile by tile (8 × 8 tiles of
  side 1024) into a one-element accumulator; the reference forms all inner products at once and sums once. Over the
  extended reals both are the same finite sum, regrouped: only commutativity and associativity of addition are used,
  so the precondition is never opened.

  Frames: the program is two kernel regions followed by three host operations. Each region is a segment entered from
  and left at "every unscoped buffer held at a known valuation"; the second region reads the normalised rows through
  two windows of one buffer, which is split into two half shares at its entry and joined at its exit; its accumulator
  is carried in the region's invariant from grid point to grid point. The word-level program's frame is the same
  argument at the word-level instance.
-/
import proofs.«174208_j39316130627934_1_alg».proof.Defs
import proofs.«174208_j39316130627934_1_alg».proof.Proof.Gen.Kernel
import proofs.«174208_j39316130627934_1_alg».proof.Proof.Gen.KernelIdeal
import proofs.«174208_j39316130627934_1_alg».proof.Proof.Gen.ReferenceIdeal
import proofs.«174208_j39316130627934_1_alg».proof.Proof.Gen.Pre_finite_inputs
import proofs.«174208_j39316130627934_1_alg».proof.Proof.Frames
import proofs.«174208_j39316130627934_1_alg».proof.Proof.KFrames
import proofs.«174208_j39316130627934_1_alg».proof.Proof.Assemble
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Fr.frame m ρ,
    fun m ρ _ => Cert.KernelIdeal.Fr.frame m ρ,
    Cert.Assemble.frame_ref,
    trivial,
    Cert.Assemble.algebraic_of_run (fun m ρ => Cert.KernelIdeal.Fr.run m ρ)⟩

end Cert.Proof

end
